-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S8192x32 : Shape := ⟨2, ![8192, 32]⟩
abbrev S16384x32 : Shape := ⟨2, ![16384, 32]⟩
abbrev S32x32 : Shape := ⟨2, ![32, 32]⟩
abbrev S_ : Shape := ⟨0, ![]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S32x32 : S_.BroadcastsInDim S32x32 (![] : Fin 0 → Fin S32x32.rank)
  reducesTo_S32x32_S_d0_1 : S32x32.ReducesTo [0, 1] S_
  bcast_S_S8192x16384 : S_.BroadcastsInDim S8192x16384 (![] : Fin 0 → Fin S8192x16384.rank)
  reducesTo_S8192x16384_S_d0_1 : S8192x16384.ReducesTo [0, 1] S_

variable [Facts]

def fn_part1 {F : FTy → Type} [FloatOps F] (main_arg0 : IVec S8192x16384 32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_c_6 : IVec S_ 32 := constantI S_ 32 0#32
  let main_v19 : IVec S8192x16384 32 := broadcastInDim S8192x16384 ![] bcast_S_S8192x16384 main_c_6
  let main_v20 : IVec S8192x16384 1 := cmpi .sge main_arg0 main_v19
  let main_c_7 : IVec S_ 32 := constantI S_ 32 5#32
  let main_v21 : IVec S8192x16384 32 := broadcastInDim S8192x16384 ![] bcast_S_S8192x16384 main_c_7
  let main_v22 : IVec S8192x16384 1 := cmpi .sle main_arg0 main_v21
  let main_v23 : IVec S8192x16384 1 := andi main_v20 main_v22
  let main_c_8 : IVec S_ 1 := constantI S_ 1 1#1
  let main_v24 : IVec S_ 1 := (fun x v => Host.reduce IntOp.andi x v reducesTo_S8192x16384_S_d0_1 h_S_) main_v23 main_c_8
  let main_v25 : IVec S_ 1 := andi main_v18 main_v24
  main_v25

def fn {F : FTy → Type} [FloatOps F] (main_arg0 : IVec S8192x16384 32) (main_arg1 : FVec F S8192x32 .f32) (main_arg2 : FVec F S16384x32 .f32) (main_arg3 : FVec F S32x32 .f32) (main_arg4 : FVec F S32x32 .f32) : IVec S_ 1 :=
  let main_v0 : FVec F S8192x32 .f32 := Host.absf main_arg1
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S16384x32 .f32 := Host.absf main_arg2
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg0 main_v13 main_v16
-- ==== Kernel.lean ====
abbrev S8192x16384 : Shape := ⟨2, ![8192, 16384]⟩
abbrev S8192x32 : Shape := ⟨2, ![8192, 32]⟩
abbrev S16384x32 : Shape := ⟨2, ![16384, 32]⟩
abbrev S32x32 : Shape := ⟨2, ![32, 32]⟩
abbrev S_ : Shape := ⟨0, ![]⟩
abbrev S8192x1 : Shape := ⟨2, ![8192, 1]⟩
abbrev S8192x95 : Shape := ⟨2, ![8192, 95]⟩
abbrev S8192x128 : Shape := ⟨2, ![8192, 128]⟩
abbrev S16384x1 : Shape := ⟨2, ![16384, 1]⟩
abbrev S16384x95 : Shape := ⟨2, ![16384, 95]⟩
abbrev S16384x128 : Shape := ⟨2, ![16384, 128]⟩
abbrev S8x16384x128 : Shape := ⟨3, ![8, 16384, 128]⟩
abbrev S1024x1024 : Shape := ⟨2, ![1024, 1024]⟩
abbrev S1024x32 : Shape := ⟨2, ![1024, 32]⟩
abbrev S1x1024x128 : Shape := ⟨3, ![1, 1024, 128]⟩
abbrev S1024x128 : Shape := ⟨2, ![1024, 128]⟩
abbrev S1024x1 : Shape := ⟨2, ![1024, 1]⟩

abbrev nBuf : Space → Nat
  | .hbm => 30
  | .vmem => 11
  | .smem => 0
  | _ => 0

abbrev bufTy : (tb : Table) → Fin (tcTables nBuf tb) → BufTy
  | .hbm, ⟨0, _⟩ => ⟨S8192x16384, .i32⟩
  | .hbm, ⟨1, _⟩ => ⟨S8192x32, .f32⟩
  | .hbm, ⟨2, _⟩ => ⟨S16384x32, .f32⟩
  | .hbm, ⟨3, _⟩ => ⟨S32x32, .f32⟩
  | .hbm, ⟨4, _⟩ => ⟨S32x32, .f32⟩
  | .hbm, ⟨5, _⟩ => ⟨S_, .f32⟩
  | .hbm, ⟨6, _⟩ => ⟨S8192x1, .f32⟩
  | .hbm, ⟨7, _⟩ => ⟨S_, .f32⟩
  | .hbm, ⟨8, _⟩ => ⟨S8192x95, .f32⟩
  | .hbm, ⟨9, _⟩ => ⟨S8192x128, .f32⟩
  | .hbm, ⟨10, _⟩ => ⟨S_, .f32⟩
  | .hbm, ⟨11, _⟩ => ⟨S16384x1, .f32⟩
  | .hbm, ⟨12, _⟩ => ⟨S_, .f32⟩
  | .hbm, ⟨13, _⟩ => ⟨S16384x95, .f32⟩
  | .hbm, ⟨14, _⟩ => ⟨S16384x128, .f32⟩
  | .hbm, ⟨15, _⟩ => ⟨S8192x32, .f32⟩
  | .hbm, ⟨16, _⟩ => ⟨S8x16384x128, .f32⟩
  | .hbm, ⟨17, _⟩ => ⟨S_, .f32⟩
  | .hbm, ⟨18, _⟩ => ⟨S16384x128, .f32⟩
  | .hbm, ⟨19, _⟩ => ⟨S16384x32, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S_, .f32⟩
  | .hbm, ⟨28, _⟩ => ⟨S16384x32, .f32⟩
  | .hbm, ⟨29, _⟩ => ⟨S16384x32, .f32⟩
  | .local _ .vmem, ⟨0, _⟩ => ⟨S1024x1024, .i32⟩
  | .local _ .vmem, ⟨1, _⟩ => ⟨S1024x1024, .i32⟩
  | .local _ .vmem, ⟨2, _⟩ => ⟨S8192x128, .f32⟩
  | .local _ .vmem, ⟨3, _⟩ => ⟨S16384x128, .f32⟩
  | .local _ .vmem, ⟨4, _⟩ => ⟨S32x32, .f32⟩
  | .local _ .vmem, ⟨5, _⟩ => ⟨S32x32, .f32⟩
  | .local _ .vmem, ⟨6, _⟩ => ⟨S1024x32, .f32⟩
  | .local _ .vmem, ⟨7, _⟩ => ⟨S1024x32, .f32⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | _, _ => ⟨S8192x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg0 : BitVec 32 := BitVec.ofNat 32 (i 0).val
  let c1024_i32 : BitVec 32 := 1024#32
  let v9 : BitVec 32 := Scalar.muli arg0 c1024_i32
  v9
def k0_mult2 (i : grid0.Coords) : BitVec 32 :=
  let arg1 : BitVec 32 := BitVec.ofNat 32 (i 1).val
  let c1024_i32_1 : BitVec 32 := 1024#32
  let v11 : BitVec 32 := Scalar.muli arg1 c1024_i32_1
  v11
def k0_off1 (i : grid0.Coords) : Fin 2 → Nat :=
  let arg0 : BitVec 32 := BitVec.ofNat 32 (i 0).val
  let c1024_i32 : BitVec 32 := 1024#32
  let v9 : BitVec 32 := Scalar.muli arg0 c1024_i32
  let v10 : BitVec 32 := v9
  let v13 : Index := Scalar.indexCast v10
  let c0_2 : Index := 0#32
  ![v13.toNat, 0]
def k0_off2 (i : grid0.Coords) : Fin 2 → Nat :=
  let arg1 : BitVec 32 := BitVec.ofNat 32 (i 1).val
  let c1024_i32_1 : BitVec 32 := 1024#32
  let v11 : BitVec 32 := Scalar.muli arg1 c1024_i32_1
  let v12 : BitVec 32 := v11
  let v17 : Index := Scalar.indexCast v12
  let c0_3 : Index := 0#32
  ![v17.toNat, 0]
def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S8192x1 : S_.BroadcastsInDim S8192x1 (![] : Fin 0 → Fin S8192x1.rank)
  bcast_S_S8192x95 : S_.BroadcastsInDim S8192x95 (![] : Fin 0 → Fin S8192x95.rank)
  concatenates_S8192x32_S8192x1_S8192x95_S8192x128_d1 : Shape.Concatenates [S8192x32, S8192x1, S8192x95] S8192x128 1
  bcast_S_S16384x1 : S_.BroadcastsInDim S16384x1 (![] : Fin 0 → Fin S16384x1.rank)
  bcast_S_S16384x95 : S_.BroadcastsInDim S16384x95 (![] : Fin 0 → Fin S16384x95.rank)
  concatenates_S16384x32_S16384x1_S16384x95_S16384x128_d1 : Shape.Concatenates [S16384x32, S16384x1, S16384x95] S16384x128 1
  inb_S1024x1024_S1024x1024_0_0 : ∀ a, (![0, 0] : Fin 2 → Nat) a + S1024x1024.size a ≤ S1024x1024.size a
  h_S1024x1024 : 0 < S1024x1024.numel
  natLt_1_32 : 1 < 32
  bitsLt_bf16_f32 : FTy.bits .bf16 < FTy.bits .f32
  h_S1024x128 : 0 < S1024x128.numel
  shapeCasts_S1024x128_S1024x128 : S1024x128.ShapeCasts S1024x128
  inb_S1024x128_S1024x128_0_0 : ∀ a, (![0, 0] : Fin 2 → Nat) a + S1024x128.size a ≤ S1024x128.size a
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  slices_S1024x128_o0_0_S1024x32 : S1024x128.Slices ![0, 0] S1024x32
  slices_S1024x128_o0_32_S1024x1 : S1024x128.Slices ![0, 32] S1024x1
  broadcasts_S1024x1_S1024x32 : S1024x1.Broadcasts S1024x32
  inb_S32x32_S32x32_0_0 : ∀ a, (![0, 0] : Fin 2 → Nat) a + S32x32.size a ≤ S32x32.size a
  h_S32x32 : 0 < S32x32.numel
  inb_S1024x32_S1024x32_0_0 : ∀ a, (![0, 0] : Fin 2 → Nat) a + S1024x32.size a ≤ S1024x32.size a
  h_S1024x32 : 0 < S1024x32.numel
  reducesTo_S8x16384x128_S16384x128_d0 : S8x16384x128.ReducesTo [0] S16384x128
  h_S_ : 0 < S_.numel
  slices_S16384x128_S16384x32_0_0 : S16384x128.Slices ![0, 0] S16384x32
  slices_S16384x128_S16384x1_0_32 : S16384x128.Slices ![0, 32] S16384x1
  bcast_S16384x1_S16384x32_0_1 : S16384x1.BroadcastsInDim S16384x32 (![0, 1] : Fin 2 → Fin S16384x32.rank)
  bcast_S_S16384x32 : S_.BroadcastsInDim S16384x32 (![] : Fin 0 → Fin S16384x32.rank)
  dot_S1024x1024_S1024x128_S1024x128_1_0_0_1_n_n_wf : DotDims.WF S1024x1024 S1024x128 S1024x128 [1] [0] [0] [1] [] []
  dot_S1024x1024_S1024x128_S1024x128_0_0_1_1_n_n_wf : DotDims.WF S1024x1024 S1024x128 S1024x128 [0] [0] [1] [1] [] []
  dot_S1024x32_S32x32_S1024x32_1_0_0_1_n_n_wf : DotDims.WF S1024x32 S32x32 S1024x32 [1] [0] [0] [1] [] []
  dot_S16384x32_S32x32_S16384x32_1_0_0_1_n_n_wf : DotDims.WF S16384x32 S32x32 S16384x32 [1] [0] [0] [1] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ a, (k0_off1 i) a + S1024x128.size a ≤ S8192x128.size a
  k0_off2_inb : ∀ i : grid0.Coords, ∀ a, (k0_off2 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x16384.size a
  hwx0_0 : ∀ i : grid0.Coords, EltTy.bits .i32 = 32 ∨ (Rect.block (s := S8192x16384) S1024x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S16384x128.size a
  hwx0_2 : ∀ i : grid0.Coords, EltTy.bits .f32 = 32 ∨ (Rect.block (s := S16384x128) S16384x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S8192x32.size a
  hwx0_5 : ∀ i : grid0.Coords, EltTy.bits .f32 = 32 ∨ (Rect.block (s := S8192x32) S1024x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S8x16384x128.size a
  hwx0_6 : ∀ i : grid0.Coords, EltTy.bits .f32 = 32 ∨ (Rect.block (s := S8x16384x128) S1x1024x128.size (cc0_transform_6 i) (hinb0_6 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16384x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1x1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S8192x16384 : Shape := ⟨2, ![8192, 16384]⟩
abbrev S8192x32 : Shape := ⟨2, ![8192, 32]⟩
abbrev S16384x32 : Shape := ⟨2, ![16384, 32]⟩
abbrev S32x32 : Shape := ⟨2, ![32, 32]⟩
abbrev S_ : Shape := ⟨0, ![]⟩
abbrev S8192 : Shape := ⟨1, ![8192]⟩
abbrev S16384 : Shape := ⟨1, ![16384]⟩
abbrev S8192x1 : Shape := ⟨2, ![8192, 1]⟩
abbrev S16384x1 : Shape := ⟨2, ![16384, 1]⟩
abbrev S16384x8192 : Shape := ⟨2, ![16384, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x16384, .i32⟩
  | .hbm, ⟨1, _⟩ => ⟨S8192x32, .f32⟩
  | .hbm, ⟨2, _⟩ => ⟨S16384x32, .f32⟩
  | .hbm, ⟨3, _⟩ => ⟨S32x32, .f32⟩
  | .hbm, ⟨4, _⟩ => ⟨S32x32, .f32⟩
  | .hbm, ⟨5, _⟩ => ⟨S_, .i32⟩
  | .hbm, ⟨6, _⟩ => ⟨S8192x16384, .i32⟩
  | .hbm, ⟨7, _⟩ => ⟨S8192x16384, .i1⟩
  | .hbm, ⟨8, _⟩ => ⟨S_, .i32⟩
  | .hbm, ⟨9, _⟩ => ⟨S8192x16384, .i32⟩
  | .hbm, ⟨10, _⟩ => ⟨S8192x16384, .i1⟩
  | .hbm, ⟨11, _⟩ => ⟨S8192x16384, .i1⟩
  | .hbm, ⟨12, _⟩ => ⟨S8192x16384, .f32⟩
  | .hbm, ⟨13, _⟩ => ⟨S_, .i32⟩
  | .hbm, ⟨14, _⟩ => ⟨S8192x16384, .i32⟩
  | .hbm, ⟨15, _⟩ => ⟨S8192x16384, .i1⟩
  | .hbm, ⟨16, _⟩ => ⟨S8192x16384, .i32⟩
  | .hbm, ⟨17, _⟩ => ⟨S_, .i32⟩
  | .hbm, ⟨18, _⟩ => ⟨S8192, .i32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x16384, .i32⟩
  | .hbm, ⟨24, _⟩ => ⟨S_, .i32⟩
  | .hbm, ⟨25, _⟩ => ⟨S16384, .i32⟩
  | .hbm, ⟨26, _⟩ => ⟨S16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S8192x1, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S16384x1, .f32⟩
  | .hbm, ⟨35, _⟩ => ⟨S16384x8192, .f32⟩
  | .hbm, ⟨36, _⟩ => ⟨S16384x32, .f32⟩
  | .hbm, ⟨37, _⟩ => ⟨S16384x32, .f32⟩
  | .hbm, ⟨38, _⟩ => ⟨S16384x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S16384x32, .f32⟩
  | .hbm, ⟨44, _⟩ => ⟨S_, .f32⟩
  | .hbm, ⟨45, _⟩ => ⟨S16384x32, .f32⟩
  | .hbm, ⟨46, _⟩ => ⟨S16384x32, .f32⟩
  | _, _ => ⟨S8192x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_v29 : Ref sig .tc := ⟨.hbm, 43, rfl⟩
abbrev main_call1_cst : Ref sig .tc := ⟨.hbm, 44, rfl⟩
abbrev main_call1_v0 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S8192x16384 : S_.BroadcastsInDim S8192x16384 (![] : Fin 0 → Fin S8192x16384.rank)
  natLt_1_32 : 1 < 32
  reducesTo_S8192x16384_S8192_d1 : S8192x16384.ReducesTo [1] S8192
  h_S_ : 0 < S_.numel
  bcast_S_S8192 : S_.BroadcastsInDim S8192 (![] : Fin 0 → Fin S8192.rank)
  reducesTo_S8192x16384_S16384_d0 : S8192x16384.ReducesTo [0] S16384
  bcast_S_S16384 : S_.BroadcastsInDim S16384 (![] : Fin 0 → Fin S16384.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S16384_S16384x1_0 : S16384.BroadcastsInDim S16384x1 (![0] : Fin 1 → Fin S16384x1.rank)
  transposes_S8192x16384_S16384x8192_1_0 : S8192x16384.Transposes [1, 0] S16384x8192
  bcast_S16384x1_S16384x32_0_1 : S16384x1.BroadcastsInDim S16384x32 (![0, 1] : Fin 2 → Fin S16384x32.rank)
  bcast_S_S8192x32 : S_.BroadcastsInDim S8192x32 (![] : Fin 0 → Fin S8192x32.rank)
  bcast_S_S16384x32 : S_.BroadcastsInDim S16384x32 (![] : Fin 0 → Fin S16384x32.rank)
  dot_S8192x16384_S16384x32_S8192x32_1_0_0_1_n_n_wf : DotDims.WF S8192x16384 S16384x32 S8192x32 [1] [0] [0] [1] [] []
  dot_S16384x8192_S8192x32_S16384x32_1_0_0_1_n_n_wf : DotDims.WF S16384x8192 S8192x32 S16384x32 [1] [0] [0] [1] [] []
  dot_S8192x32_S32x32_S8192x32_1_0_0_1_n_n_wf : DotDims.WF S8192x32 S32x32 S8192x32 [1] [0] [0] [1] [] []
  dot_S16384x32_S32x32_S16384x32_1_0_0_1_n_n_wf : DotDims.WF S16384x32 S32x32 S16384x32 [1] [0] [0] [1] [] []

variable [Facts₀]

def dot_S8192x16384_S16384x32_S8192x32_1_0_0_1_n_n : DotDims S8192x16384 S16384x32 S8192x32 where
  lhsContracting := [1]
  rhsContracting := [0]
  lhsNonContracting := [0]
  rhsNonContracting := [1]
  lhsBatch := []
  rhsBatch := []
  wf := dot_S8192x16384_S16384x32_S8192x32_1_0_0_1_n_n_wf
def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf

class Facts : Prop extends Facts₀ where

variable [Facts]
-- ==== Proof.FrameKitB.lean ====
/-
  The launch side of the one pipelined region of `Kernel`'s @main, for any float instance: what every device
  buffer holds when the region is entered (the two padded feature arrays are written by the host lines before
  it), @main as "host lines, region, host lines", what the lines after the region may touch, each window's block
  at a grid point, and the two conditions of the body in closed form over the 8 × 16 grid (point `t` is row block
  `t / 16`, column block `t % 16`): the accumulator is reset at column block 0 and the row-side result is stored
  at column block 15, where alone its window is written back.
-/
import proofs.«133575_j89395449299805_2_alg».proof.Proof.Gen.Kernel.Launch
import proofs.«133575_j89395449299805_2_alg».proof.Proof.Gen.Kernel.Skeleton
import proofs.«133575_j89395449299805_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the ten host lines that build
    the two padded feature arrays. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host lines before the region, the region, and the host lines after it (the reduction over the
    row blocks, the division by the clamped degree, the product with the weight, and the clamp at zero). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The lines after the region touch only arrays of the pipeline and buffers that bypass it. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the region writes an argument array. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]; after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]; after_results
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]; after_results
theorem V_main_arg3 (c : Dev nD) : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil]; after_results
theorem V_main_arg4 (c : Dev nD) : V m c main_arg4 = m ((c : Thread nD τ).loc main_arg4) := by
  show StableHlo.after (List.flatten [hostOps0]) (fun b => m (c, b)) (Proc.devRef .tc main_arg4) = _
  simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is column block 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the row-side result is computed and stored. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_6 : ∀ t : Fin cfg0.N, cfg0.idle 6 (grid0.coords t) = false := by decide +kernel
/-- Away from column block 15 the row-side window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs the body is called with -/

abbrev ms0_0 (t : Fin cfg0.N) : Memref sig .tc .vmem S1024x1024 .i32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S8192x128 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S16384x128 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S32x32 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S32x32 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S1024x32 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S1x1024x128 .f32 := win0_6.stage (cfg0.slots t 6)
abbrev hs0_6 (t : Fin cfg0.N) : (ms0_6 t).IsWhole := Facts₀.hstage0_6 ((cfg0.slots t 6).cast Facts₀.nbuf0_6)
/-- The accumulator: a whole scoped buffer of the kernel's own. -/
abbrev scM0_0 : Memref sig .tc .vmem S1024x128 .f32 := Memref.whole cc0_scratch0
abbrev VS0_0 : View sig .tc .vmem S1024x128 .f32 := scM0_0.view
/-- One staging buffer of each output window, through which its contents are stated. -/
abbrev VO0_5 : View sig .tc .vmem S1024x32 .f32 := (Memref.whole cc0_stg5_0 : Memref sig .tc .vmem S1024x32 .f32).view
abbrev VO0_6 : View sig .tc .vmem S1x1024x128 .f32 := (Memref.whole cc0_stg6_0 : Memref sig .tc .vmem S1x1024x128 .f32).view

/-- The region's invariant: the accumulator owned at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.RunFirstB.lean ====
/-
  The body at a point of column block 0 (the accumulator is reset, then the block's product is added; the
  column-side partial is stored; the row-side window is left untouched): what the stores leave in the column-side
  window's buffer and in the accumulator, as pieces, with the proof that the body runs to its end on whole
  staging buffers.
-/
import proofs.«133575_j89395449299805_2_alg».proof.Proof.FrameKitB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : cond0_0 i) (hc1 : ¬cond0_1 i)
    (x0 : Vec F S1024x1024 .i32) (x1 : Vec F S8192x128 .f32) (x2 : Vec F S16384x128 .f32) (x3 : Vec F S32x32 .f32) (x4 : Vec F S32x32 .f32) :
    Σ' (L5 : List (View.Piece (Elt F) S1024x32 .f32)) (L6 : List (View.Piece (Elt F) S1x1024x128 .f32)), { LS0 : List (View.Piece (Elt F) S1024x128 .f32) //
      ∀ (xi5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Fr

end
-- ==== Proof.RunMidB.lean ====
/-
  The body at a point of an interior column block (1 … 14): the block's product is added to the accumulator the
  point before left, the column-side partial is stored, the row-side window is left untouched.
-/
import proofs.«133575_j89395449299805_2_alg».proof.Proof.FrameKitB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : ¬cond0_0 i) (hc1 : ¬cond0_1 i)
    (x0 : Vec F S1024x1024 .i32) (x1 : Vec F S8192x128 .f32) (x2 : Vec F S16384x128 .f32) (x3 : Vec F S32x32 .f32) (x4 : Vec F S32x32 .f32) (xs0 : Vec F S1024x128 .f32) :
    Σ' (L5 : List (View.Piece (Elt F) S1024x32 .f32)) (L6 : List (View.Piece (Elt F) S1x1024x128 .f32)), { LS0 : List (View.Piece (Elt F) S1024x128 .f32) //
      ∀ (xi5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Fr

end
-- ==== Proof.RunLastB.lean ====
/-
  The body at a point of column block 15: the block's product is added to the accumulator the point before left,
  the column-side partial is stored, and the row-side result — the accumulated rows divided by the clamped degree
  column, times the weight, clamped at zero — is stored into its window.
-/
import proofs.«133575_j89395449299805_2_alg».proof.Proof.FrameKitB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : ¬cond0_0 i) (hc1 : cond0_1 i)
    (x0 : Vec F S1024x1024 .i32) (x1 : Vec F S8192x128 .f32) (x2 : Vec F S16384x128 .f32) (x3 : Vec F S32x32 .f32) (x4 : Vec F S32x32 .f32) (xs0 : Vec F S1024x128 .f32) :
    Σ' (L5 : List (View.Piece (Elt F) S1024x32 .f32)) (L6 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.Kernel.Fr

end
-- ==== Proof.FrameDataB.lean ====
/-
  What the two output windows' staging buffers and the accumulator hold after the body at each grid point, by
  recursion on the point: at column block 0 the accumulator starts again from the block's product, at the other
  column blocks it adds the block's product to what the point before left; the column-side window is stored at
  every point, the row-side window only at column block 15 (elsewhere it is idle and not written back). From that
  the pipeline's proof data, the body's obligation at every point, the run of @main and the frame.
-/
import proofs.«133575_j89395449299805_2_alg».proof.Proof.RunFirstB
import proofs.«133575_j89395449299805_2_alg».proof.Proof.RunMidB
import proofs.«133575_j89395449299805_2_alg».proof.Proof.RunLastB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pieces read back -/

/-- A list of pieces read back as the contents of the row-side window's buffer / the column-side window's buffer /
    the accumulator. -/
def rd5 (L : List (View.Piece (Elt F) S1024x32 .f32)) : Vec F S1024x32 .f32 := VO0_5.read (Elt F) (VO0_5.writes (Elt F) VO0_5.junk L)
def rd6 (L : List (View.Piece (Elt F) S1x1024x128 .f32)) : Vec F S1x1024x128 .f32 := VO0_6.read (Elt F) (VO0_6.writes (Elt F) VO0_6.junk L)
def rdS (L : List (View.Piece (Elt F) S1024x128 .f32)) : Vec F S1024x128 .f32 := VS0_0.read (Elt F) (VS0_0.writes (Elt F) VS0_0.junk L)

/-! ## The body's run at a point of each kind, on the point's own staging buffers and input blocks -/

def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)
def runB (c : Dev nD) (t : Fin cfg0.N) (h0 : ¬t.val % 16 = 0) (h1 : ¬t.val % 16 = 15) (xs0 : Vec F S1024x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) xs0
def runC (c : Dev nD) (t : Fin cfg0.N) (h0 : ¬t.val % 16 = 0) (h1 : t.val % 16 = 15) (xs0 : Vec F S1024x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) xs0

/-- The pieces of each run tile the buffer they are stored into, so they cover it. -/
theorem cover6_A (c : Dev nD) (t : Fin cfg0.N) (h0 h1) (y : S1x1024x128.Idx) : ∃ pc ∈ (runA m c t h0 h1).2.1, y ∈ pc.1.set :=
  View.cover_of_tiledL (runA m c t h0 h1).2.1 S1x1024x128.size (by unfold runA; sl_kernel_rfl) y
theorem coverS_A (c : Dev nD) (t : Fin cfg0.N) (h0 h1) (y : S1024x128.Idx) : ∃ pc ∈ (runA m c t h0 h1).2.2.1, y ∈ pc.1.set :=
  View.cover_of_tiledL (runA m c t h0 h1).2.2.1 S1024x128.size (by unfold runA; sl_kernel_rfl) y
theorem cover6_B (c : Dev nD) (t : Fin cfg0.N) (h0 h1 xs0) (y : S1x1024x128.Idx) : ∃ pc ∈ (runB m c t h0 h1 xs0).2.1, y ∈ pc.1.set :=
  View.cover_of_tiledL (runB m c t h0 h1 xs0).2.1 S1x1024x128.size (by unfold runB; sl_kernel_rfl) y
theorem coverS_B (c : Dev nD) (t : Fin cfg0.N) (h0 h1 xs0) (y : S1024x128.Idx) : ∃ pc ∈ (runB m c t h0 h1 xs0).2.2.1, y ∈ pc.1.set :=
  View.cover_of_tiledL (runB m c t h0 h1 xs0).2.2.1 S1024x128.size (by unfold runB; sl_kernel_rfl) y
theorem cover5_C (c : Dev nD) (t : Fin cfg0.N) (h0 h1 xs0) (y : S1024x32.Idx) : ∃ pc ∈ (runC m c t h0 h1 xs0).1, y ∈ pc.1.set :=
  View.cover_of_tiledL (runC m c t h0 h1 xs0).1 S1024x32.size (by unfold runC; sl_kernel_rfl) y
theorem cover6_C (c : Dev nD) (t : Fin cfg0.N) (h0 h1 xs0) (y : S1x1024x128.Idx) : ∃ pc ∈ (runC m c t h0 h1 xs0).2.1, y ∈ pc.1.set :=
  View.cover_of_tiledL (runC m c t h0 h1 xs0).2.1 S1x1024x128.size (by unfold runC; sl_kernel_rfl) y
theorem coverS_C (c : Dev nD) (t : Fin cfg0.N) (h0 h1 xs0) (y : S1024x128.Idx) : ∃ pc ∈ (runC m c t h0 h1 xs0).2.2.1, y ∈ pc.1.set :=
  View.cover_of_tiledL (runC m c t h0 h1 xs0).2.2.1 S1024x128.size (by unfold runC; sl_kernel_rfl) y

/-! ## What the buffers hold after each point -/

/-- After the body at position `n`: the row-side window's buffer, the column-side window's buffer, the
    accumulator. The row-side entry is a placeholder away from column block 15 (the window is idle there). -/
def outsAt0 (c : Dev nD) : (n : ℕ) → n < cfg0.N → Vec F S1024x32 .f32 × Vec F S1x1024x128 .f32 × Vec F S1024x128 .f32
  | 0, hn => (rd5 [], rd6 (runA m c ⟨0, hn⟩ (Nat.zero_mod _) (fun h => absurd (show (0 : ℕ) % 16 = 15 from h) (by decide))).2.1, rdS (runA m c ⟨0, hn⟩ (Nat.zero_mod _) (fun h => absurd (show (0 : ℕ) % 16 = 15 from h) (by decide))).2.2.1)
  | n + 1, hn =>
    if h0 : (n + 1) % 16 = 0 then
      (rd5 [], rd6 (runA m c ⟨n + 1, hn⟩ h0 (fun h => by have h' : (n + 1) % 16 = 15 := h; omega)).2.1, rdS (runA m c ⟨n + 1, hn⟩ h0 (fun h => by have h' : (n + 1) % 16 = 15 := h; omega)).2.2.1)
    else if h1 : (n + 1) % 16 = 15 then
      (rd5 (runC m c ⟨n + 1, hn⟩ h0 h1 (outsAt0 c n (Nat.lt_of_succ_lt hn)).2.2).1,
       rd6 (runC m c ⟨n + 1, hn⟩ h0 h1 (outsAt0 c n (Nat.lt_of_succ_lt hn)).2.2).2.1,
       rdS (runC m c ⟨n + 1, hn⟩ h0 h1 (outsAt0 c n (Nat.lt_of_succ_lt hn)).2.2).2.2.1)
    else
      (rd5 [], rd6 (runB m c ⟨n + 1, hn⟩ h0 h1 (outsAt0 c n (Nat.lt_of_succ_lt hn)).2.2).2.1,
       rdS (runB m c ⟨n + 1, hn⟩ h0 h1 (outsAt0 c n (Nat.lt_of_succ_lt hn)).2.2).2.2.1)

theorem outsAt0_A (c : Dev nD) (t : Fin cfg0.N) (h0 : t.val % 16 = 0) (h1 : ¬t.val % 16 = 15) :
    outsAt0 m c t.val t.isLt = (rd5 [], rd6 (runA m c t h0 h1).2.1, rdS (runA m c t h0 h1).2.2.1) := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 m c t.val t.isLt = (rd5 [], rd6 (runB m c t h0 h1 (outsAt0 m c (t.val - 1) (Nat.lt_of_le_of_lt (Nat.sub_le _ _) t.isLt)).2.2).2.1,
      rdS (runB m c t h0 h1 (outsAt0 m c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (rd5 (runC m c t h0 h1 (outsAt0 m c (t.val - 1) (Nat.lt_of_le_of_lt (Nat.sub_le _ _) t.isLt)).2.2).1,
      rd6 (runC m c t h0 h1 (outsAt0 m c (t.val - 1) (Nat.lt_of_le_of_lt (Nat.sub_le _ _) t.isLt)).2.2).2.1,
      rdS (runC m c t h0 h1 (outsAt0 m c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h1).trans rfl)

/-! ## The region's invariant -/

/-- Before position `n`: at the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]
theorem leaves_out6 (c : Dev nD) (t : Fin cfg0.N) : (dats m 0 c).leavesExact 6 t = owns (c : Thread nD τ) (ms0_6 t) fullShare ((outsAt0 m c t.val t.isLt).2.1) := by
  unfold Dat.leavesExact; rw [liveAt0_6 t, after0_6]
theorem leaves_out5 (c : Dev nD) (t : Fin cfg0.N) (h1 : t.val % 16 = 15) : (dats m 0 c).leavesExact 5 t = owns (c : Thread nD τ) (ms0_5 t) fullShare ((outsAt0 m c t.val t.isLt).1) := by
  unfold Dat.leavesExact; rw [liveAt0_5 t ((hcond0_1 t).mpr h1), after0_5]
theorem leaves_idle5 (c : Dev nD) (t : Fin cfg0.N) (h1 : ¬t.val % 16 = 15) :
    (dats m 0 c).leavesExact 5 t = iprop(∃ d, owns (c : Thread nD τ) (ms0_5 t) fullShare ((dats m 0 c).before 5 t d)) :=
  Dat.leavesExact_idle (dats m 0 c) 5 t (idleAt0_5 t (fun h => h1 ((hcond0_1 t).mp h))) (noFlush0_5 t (fun h => h1 ((hcond0_1 t).mp h)))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_out6]
  have hN : t.val < 128 := lt_of_lt_of_eq t.isLt (show cfg0.N = 128 from N_0)
  by_cases h0 : t.val % 16 = 0
  · have h1 : ¬t.val % 16 = 15 := by omega
    rw [leaves_idle5 m c t h1, outsAt0_A m c t h0 h1]
    (try dsimp only)
    by_cases hz : t.val = 0
    · rw [PhiS_castSucc m c t, PhiS_zero m c _ _ hz, PhiA0_eq]
      iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_A m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_A m c t h0 h1)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_A m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_A m c t h0 h1)
  · have hz : t.val ≠ 0 := fun h => h0 (by rw [h])
    by_cases h1 : t.val % 16 = 15
    · rw [leaves_out5 m c t h1, outsAt0_C m c t h0 h1]
      (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_C m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_C m c t h0 h1 _)
      unfold owns; iexists _; isplitr
      swap; · iexact H6
      ipureintro; exact View.read_writes_of_cover _ _ _ _ _ (cover6_C m c t h0 h1 _)
    · rw [leaves_idle5 m c t h1, outsAt0_B m c t h0 h1]
      (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_B m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_B m c t h0 h1 _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates; every array of the pipeline ends at what the library computes
    from the proof data, every other buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

end Cert.Kernel.Fr

end
-- ==== Proof.FrameEndB.lean ====
/-
  The frame of `Kernel`: the run of @main leaves the five argument arrays unchanged. Three of them are arrays of
  input windows of the region (the adjacency matrix and the two weights: an input window's array is never written
  back); the two feature matrices are read only by the host lines before the region, and neither the region nor a
  host line after it writes them.
-/
import proofs.«133575_j89395449299805_2_alg».proof.Proof.FrameDataB

set_option maxRecDepth 16384

noncomputable section

namespace Cert.Kernel.Fr

open Idealize.ShloMosaic Idealize.ShloMosaic.TcCoe Idealize.ShloMosaic.Tactic
open Idealize.SL Idealize.SL.Sem
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- A buffer that is no array of the pipeline and that no host line after the region writes ends as the region
    found it. -/
theorem tail_arg1 (c : Dev nD) :
    Pipeline.afterTail₀ cfgs (dats m) 0 (V0 m) [hostOps1, hostOps1_1] c main_arg1 = m ((c : Thread nD τ).loc main_arg1) := by
  unfold Pipeline.afterTail₀
  show StableHlo.after (List.flatten [hostOps1, hostOps1_1]) _ (Proc.devRef .tc main_arg1) = _
  simp only [hostOps1, hostOps1_1, List.flatten_cons, List.flatten_nil, List.append_nil, List.cons_append, List.nil_append]
  after_results
  rw [Pipeline.withArrays_of_ne (cfgs 0).spec c _ _ main_arg1 (fun w => by fin_cases w <;> decide)]
  exact V_main_arg1 m c

theorem tail_arg2 (c : Dev nD) :
    Pipeline.afterTail₀ cfgs (dats m) 0 (V0 m) [hostOps1, hostOps1_1] c main_arg2 = m ((c : Thread nD τ).loc main_arg2) := by
  unfold Pipeline.afterTail₀
  show StableHlo.after (List.flatten [hostOps1, hostOps1_1]) _ (Proc.devRef .tc main_arg2) = _
  simp only [hostOps1, hostOps1_1, List.flatten_cons, List.flatten_nil, List.append_nil, List.cons_append, List.nil_append]
  after_results
  rw [Pipeline.withArrays_of_ne (cfgs 0).spec c _ _ main_arg2 (fun w => by fin_cases w <;> decide)]
  exact V_main_arg2 m c

theorem rest_arg1 : main_arg1 ∈ Pipeline.restRefs sig (cfgs 0).spec := by decide
theorem rest_arg2 : main_arg2 ∈ Pipeline.restRefs sig (cfgs 0).spec := by decide

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 rest_arg1).trans (tail_arg1 m c),
     ((h c).2 main_arg2 rest_arg2).trans (tail_arg2 m c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩) (run_main m ρ)

end Cert.Kernel.Fr

end
-- ==== Proof.FrameKitI.lean ====
/-
  The launch side of the one pipelined region of `KernelIdeal`'s @main, for any float instance: what every device
  buffer holds when the region is entered (the two padded feature arrays are written by the host lines before
  it), @main as "host lines, region, host lines", what the lines after the region may touch, each window's block
  at a grid point, and the two conditions of the body in closed form over the 8 × 16 grid (point `t` is row block
  `t / 16`, column block `t % 16`): the accumulator is reset at column block 0 and the row-side result is stored
  at column block 15, where alone its window is written back.
-/
import proofs.«133575_j89395449299805_2_alg».proof.Proof.Gen.KernelIdeal.Launch
import proofs.«133575_j89395449299805_2_alg».proof.Proof.Gen.KernelIdeal.Skeleton
import proofs.«133575_j89395449299805_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the ten host lines that build
    the two padded feature arrays. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the host lines before the region, the region, and the host lines after it (the reduction over the
    row blocks, the division by the clamped degree, the product with the weight, and the clamp at zero). -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] (by simp only [List.Forall]; exact hostOps0_sub)
    (by simp only [List.Forall]; exact hostOps0_fresh) main_chain

/-- The lines after the region touch only arrays of the pipeline and buffers that bypass it. -/
theorem sfx_sub : ∀ ops ∈ ([hostOps1, hostOps1_1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host line before the region writes an argument array. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]; after_results
theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]; after_results
theorem V_main_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]; after_results
theorem V_main_arg3 (c : Dev nD) : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil]; after_results
theorem V_main_arg4 (c : Dev nD) : V m c main_arg4 = m ((c : Thread nD τ).loc main_arg4) := by
  show StableHlo.after (List.flatten [hostOps0]) (fun b => m (c, b)) (Proc.devRef .tc main_arg4) = _
  simp only [hostOps0, List.flatten_cons, List.flatten_nil, List.append_nil]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is column block 0": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column block 15": the row-side result is computed and stored. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_6 : ∀ t : Fin cfg0.N, cfg0.idle 6 (grid0.coords t) = false := by decide +kernel
/-- Away from column block 15 the row-side window is idle and is not written back. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The staging memrefs the body is called with -/

abbrev ms0_0 (t : Fin cfg0.N) : Memref sig .tc .vmem S1024x1024 .i32 := win0_0.stage (cfg0.slots t 0)
abbrev hs0_0 (t : Fin cfg0.N) : (ms0_0 t).IsWhole := Facts₀.hstage0_0 ((cfg0.slots t 0).cast Facts₀.nbuf0_0)
abbrev ms0_1 (t : Fin cfg0.N) : Memref sig .tc .vmem S8192x128 .f32 := win0_1.stage (cfg0.slots t 1)
abbrev hs0_1 (t : Fin cfg0.N) : (ms0_1 t).IsWhole := Facts₀.hstage0_1 ((cfg0.slots t 1).cast Facts₀.nbuf0_1)
abbrev ms0_2 (t : Fin cfg0.N) : Memref sig .tc .vmem S16384x128 .f32 := win0_2.stage (cfg0.slots t 2)
abbrev hs0_2 (t : Fin cfg0.N) : (ms0_2 t).IsWhole := Facts₀.hstage0_2 ((cfg0.slots t 2).cast Facts₀.nbuf0_2)
abbrev ms0_3 (t : Fin cfg0.N) : Memref sig .tc .vmem S32x32 .f32 := win0_3.stage (cfg0.slots t 3)
abbrev hs0_3 (t : Fin cfg0.N) : (ms0_3 t).IsWhole := Facts₀.hstage0_3 ((cfg0.slots t 3).cast Facts₀.nbuf0_3)
abbrev ms0_4 (t : Fin cfg0.N) : Memref sig .tc .vmem S32x32 .f32 := win0_4.stage (cfg0.slots t 4)
abbrev hs0_4 (t : Fin cfg0.N) : (ms0_4 t).IsWhole := Facts₀.hstage0_4 ((cfg0.slots t 4).cast Facts₀.nbuf0_4)
abbrev ms0_5 (t : Fin cfg0.N) : Memref sig .tc .vmem S1024x32 .f32 := win0_5.stage (cfg0.slots t 5)
abbrev hs0_5 (t : Fin cfg0.N) : (ms0_5 t).IsWhole := Facts₀.hstage0_5 ((cfg0.slots t 5).cast Facts₀.nbuf0_5)
abbrev ms0_6 (t : Fin cfg0.N) : Memref sig .tc .vmem S1x1024x128 .f32 := win0_6.stage (cfg0.slots t 6)
abbrev hs0_6 (t : Fin cfg0.N) : (ms0_6 t).IsWhole := Facts₀.hstage0_6 ((cfg0.slots t 6).cast Facts₀.nbuf0_6)
/-- The accumulator: a whole scoped buffer of the kernel's own. -/
abbrev scM0_0 : Memref sig .tc .vmem S1024x128 .f32 := Memref.whole cc0_scratch0
abbrev VS0_0 : View sig .tc .vmem S1024x128 .f32 := scM0_0.view
/-- One staging buffer of each output window, through which its contents are stated. -/
abbrev VO0_5 : View sig .tc .vmem S1024x32 .f32 := (Memref.whole cc0_stg5_0 : Memref sig .tc .vmem S1024x32 .f32).view
abbrev VO0_6 : View sig .tc .vmem S1x1024x128 .f32 := (Memref.whole cc0_stg6_0 : Memref sig .tc .vmem S1x1024x128 .f32).view

/-- The region's invariant: the accumulator owned at some contents, and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.RunFirstI.lean ====
/-
  The body at a point of column block 0 (the accumulator is reset, then the block's product is added; the
  column-side partial is stored; the row-side window is left untouched): what the stores leave in the column-side
  window's buffer and in the accumulator, as pieces, with the proof that the body runs to its end on whole
  staging buffers.
-/
import proofs.«133575_j89395449299805_2_alg».proof.Proof.FrameKitI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : cond0_0 i) (hc1 : ¬cond0_1 i)
    (x0 : Vec F S1024x1024 .i32) (x1 : Vec F S8192x128 .f32) (x2 : Vec F S16384x128 .f32) (x3 : Vec F S32x32 .f32) (x4 : Vec F S32x32 .f32) :
    Σ' (L5 : List (View.Piece (Elt F) S1024x32 .f32)) (L6 : List (View.Piece (Elt F) S1x1024x128 .f32)), { LS0 : List (View.Piece (Elt F) S1024x128 .f32) //
      ∀ (xi5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Fr

end
-- ==== Proof.RunMidI.lean ====
/-
  The body at a point of an interior column block (1 … 14): the block's product is added to the accumulator the
  point before left, the column-side partial is stored, the row-side window is left untouched.
-/
import proofs.«133575_j89395449299805_2_alg».proof.Proof.FrameKitI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : ¬cond0_0 i) (hc1 : ¬cond0_1 i)
    (x0 : Vec F S1024x1024 .i32) (x1 : Vec F S8192x128 .f32) (x2 : Vec F S16384x128 .f32) (x3 : Vec F S32x32 .f32) (x4 : Vec F S32x32 .f32) (xs0 : Vec F S1024x128 .f32) :
    Σ' (L5 : List (View.Piece (Elt F) S1024x32 .f32)) (L6 : List (View.Piece (Elt F) S1x1024x128 .f32)), { LS0 : List (View.Piece (Elt F) S1024x128 .f32) //
      ∀ (xi5 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨[], ?_, ?_, fun xi5 E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Fr

end
-- ==== Proof.RunLastI.lean ====
/-
  The body at a point of column block 15: the block's product is added to the accumulator the point before left,
  the column-side partial is stored, and the row-side result — the accumulated rows divided by the clamped degree
  column, times the weight, clamped at zero — is stored into its window.
-/
import proofs.«133575_j89395449299805_2_alg».proof.Proof.FrameKitI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1024 .i32) (harg2 : arg2.IsWhole) (arg3 : Memref sig .tc .vmem S8192x128 .f32) (harg3 : arg3.IsWhole) (arg4 : Memref sig .tc .vmem S16384x128 .f32) (harg4 : arg4.IsWhole) (arg5 : Memref sig .tc .vmem S32x32 .f32) (harg5 : arg5.IsWhole) (arg6 : Memref sig .tc .vmem S32x32 .f32) (harg6 : arg6.IsWhole) (arg7 : Memref sig .tc .vmem S1024x32 .f32) (harg7 : arg7.IsWhole) (arg8 : Memref sig .tc .vmem S1x1024x128 .f32) (harg8 : arg8.IsWhole) (arg9 : Memref sig .tc .vmem S1024x128 .f32) (harg9 : arg9.IsWhole) (hc0 : ¬cond0_0 i) (hc1 : cond0_1 i)
    (x0 : Vec F S1024x1024 .i32) (x1 : Vec F S8192x128 .f32) (x2 : Vec F S16384x128 .f32) (x3 : Vec F S32x32 .f32) (x4 : Vec F S32x32 .f32) (xs0 : Vec F S1024x128 .f32) :
    Σ' (L5 : List (View.Piece (Elt F) S1024x32 .f32)) (L6 : List (View.Piece (Elt F) S1x1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

end Cert.KernelIdeal.Fr

end
-- ==== Proof.FrameDataI.lean ====
/-
  What the two output windows' staging buffers and the accumulator hold after the body at each grid point, by
  recursion on the point: at column block 0 the accumulator starts again from the block's product, at the other
  column blocks it adds the block's product to what the point before left; the column-side window is stored at
  every point, the row-side window only at column block 15 (elsewhere it is idle and not written back). From that
  the pipeline's proof data, the body's obligation at every point, the run of @main and the frame.
-/
import proofs.«133575_j89395449299805_2_alg».proof.Proof.RunFirstI
import proofs.«133575_j89395449299805_2_alg».proof.Proof.RunMidI
import proofs.«133575_j89395449299805_2_alg».proof.Proof.RunLastI

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Pieces read back -/

/-- A list of pieces read back as the contents of the row-side window's buffer / the column-side window's buffer /
    the accumulator. -/
def rd5 (L : List (View.Piece (Elt F) S1024x32 .f32)) : Vec F S1024x32 .f32 := VO0_5.read (Elt F) (VO0_5.writes (Elt F) VO0_5.junk L)
def rd6 (L : List (View.Piece (Elt F) S1x1024x128 .f32)) : Vec F S1x1024x128 .f32 := VO0_6.read (Elt F) (VO0_6.writes (Elt F) VO0_6.junk L)
def rdS (L : List (View.Piece (Elt F) S1024x128 .f32)) : Vec F S1024x128 .f32 := VS0_0.read (Elt F) (VS0_0.writes (Elt F) VS0_0.junk L)

/-! ## The body's run at a point of each kind, on the point's own staging buffers and input blocks -/

def runA (c : Dev nD) (t : Fin cfg0.N) (h0 : t.val % 16 = 0) (h1 : ¬t.val % 16 = 15) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t)
def runB (c : Dev nD) (t : Fin cfg0.N) (h0 : ¬t.val % 16 = 0) (h1 : ¬t.val % 16 = 15) (xs0 : Vec F S1024x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) xs0
def runC (c : Dev nD) (t : Fin cfg0.N) (h0 : ¬t.val % 16 = 0) (h1 : t.val % 16 = 15) (xs0 : Vec F S1024x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) xs0

/-- The pieces of each run tile the buffer they are stored into, so they cover it. -/
theorem cover6_A (c : Dev nD) (t : Fin cfg0.N) (h0 h1) (y : S1x1024x128.Idx) : ∃ pc ∈ (runA m c t h0 h1).2.1, y ∈ pc.1.set :=
  View.cover_of_tiledL (runA m c t h0 h1).2.1 S1x1024x128.size (by unfold runA; sl_kernel_rfl) y
theorem coverS_A (c : Dev nD) (t : Fin cfg0.N) (h0 h1) (y : S1024x128.Idx) : ∃ pc ∈ (runA m c t h0 h1).2.2.1, y ∈ pc.1.set :=
  View.cover_of_tiledL (runA m c t h0 h1).2.2.1 S1024x128.size (by unfold runA; sl_kernel_rfl) y
theorem cover6_B (c : Dev nD) (t : Fin cfg0.N) (h0 h1 xs0) (y : S1x1024x128.Idx) : ∃ pc ∈ (runB m c t h0 h1 xs0).2.1, y ∈ pc.1.set :=
  View.cover_of_tiledL (runB m c t h0 h1 xs0).2.1 S1x1024x128.size (by unfold runB; sl_kernel_rfl) y
theorem coverS_B (c : Dev nD) (t : Fin cfg0.N) (h0 h1 xs0) (y : S1024x128.Idx) : ∃ pc ∈ (runB m c t h0 h1 xs0).2.2.1, y ∈ pc.1.set :=
  View.cover_of_tiledL (runB m c t h0 h1 xs0).2.2.1 S1024x128.size (by unfold runB; sl_kernel_rfl) y
theorem cover5_C (c : Dev nD) (t : Fin cfg0.N) (h0 h1 xs0) (y : S1024x32.Idx) : ∃ pc ∈ (runC m c t h0 h1 xs0).1, y ∈ pc.1.set :=
  View.cover_of_tiledL (runC m c t h0 h1 xs0).1 S1024x32.size (by unfold runC; sl_kernel_rfl) y
theorem cover6_C (c : Dev nD) (t : Fin cfg0.N) (h0 h1 xs0) (y : S1x1024x128.Idx) : ∃ pc ∈ (runC m c t h0 h1 xs0).2.1, y ∈ pc.1.set :=
  View.cover_of_tiledL (runC m c t h0 h1 xs0).2.1 S1x1024x128.size (by unfold runC; sl_kernel_rfl) y
theorem coverS_C (c : Dev nD) (t : Fin cfg0.N) (h0 h1 xs0) (y : S1024x128.Idx) : ∃ pc ∈ (runC m c t h0 h1 xs0).2.2.1, y ∈ pc.1.set :=
  View.cover_of_tiledL (runC m c t h0 h1 xs0).2.2.1 S1024x128.size (by unfold runC; sl_kernel_rfl) y

/-! ## What the buffers hold after each point -/

/-- After the body at position `n`: the row-side window's buffer, the column-side window's buffer, the
    accumulator. The row-side entry is a placeholder away from column block 15 (the window is idle there). -/
def outsAt0 (c : Dev nD) : (n : ℕ) → n < cfg0.N → Vec F S1024x32 .f32 × Vec F S1x1024x128 .f32 × Vec F S1024x128 .f32
  | 0, hn => (rd5 [], rd6 (runA m c ⟨0, hn⟩ (Nat.zero_mod _) (fun h => absurd (show (0 : ℕ) % 16 = 15 from h) (by decide))).2.1, rdS (runA m c ⟨0, hn⟩ (Nat.zero_mod _) (fun h => absurd (show (0 : ℕ) % 16 = 15 from h) (by decide))).2.2.1)
  | n + 1, hn =>
    if h0 : (n + 1) % 16 = 0 then
      (rd5 [], rd6 (runA m c ⟨n + 1, hn⟩ h0 (fun h => by have h' : (n + 1) % 16 = 15 := h; omega)).2.1, rdS (runA m c ⟨n + 1, hn⟩ h0 (fun h => by have h' : (n + 1) % 16 = 15 := h; omega)).2.2.1)
    else if h1 : (n + 1) % 16 = 15 then
      (rd5 (runC m c ⟨n + 1, hn⟩ h0 h1 (outsAt0 c n (Nat.lt_of_succ_lt hn)).2.2).1,
       rd6 (runC m c ⟨n + 1, hn⟩ h0 h1 (outsAt0 c n (Nat.lt_of_succ_lt hn)).2.2).2.1,
       rdS (runC m c ⟨n + 1, hn⟩ h0 h1 (outsAt0 c n (Nat.lt_of_succ_lt hn)).2.2).2.2.1)
    else
      (rd5 [], rd6 (runB m c ⟨n + 1, hn⟩ h0 h1 (outsAt0 c n (Nat.lt_of_succ_lt hn)).2.2).2.1,
       rdS (runB m c ⟨n + 1, hn⟩ h0 h1 (outsAt0 c n (Nat.lt_of_succ_lt hn)).2.2).2.2.1)

theorem outsAt0_A (c : Dev nD) (t : Fin cfg0.N) (h0 : t.val % 16 = 0) (h1 : ¬t.val % 16 = 15) :
    outsAt0 m c t.val t.isLt = (rd5 [], rd6 (runA m c t h0 h1).2.1, rdS (runA m c t h0 h1).2.2.1) := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 m c t.val t.isLt = (rd5 [], rd6 (runB m c t h0 h1 (outsAt0 m c (t.val - 1) (Nat.lt_of_le_of_lt (Nat.sub_le _ _) t.isLt)).2.2).2.1,
      rdS (runB m c t h0 h1 (outsAt0 m c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (rd5 (runC m c t h0 h1 (outsAt0 m c (t.val - 1) (Nat.lt_of_le_of_lt (Nat.sub_le _ _) t.isLt)).2.2).1,
      rd6 (runC m c t h0 h1 (outsAt0 m c (t.val - 1) (Nat.lt_of_le_of_lt (Nat.sub_le _ _) t.isLt)).2.2).2.1,
      rdS (runC m c t h0 h1 (outsAt0 m c (t.val - 1) (Nat.lt_of_le_of_lt (Nat.sub_le _ _) t.isLt)).2.2).2.2.1) := by
  obtain ⟨n, hn⟩ := t
  cases n with
  | zero => exact absurd (Nat.zero_mod _) h0
  | succ n => exact (dif_neg h0).trans ((dif_pos h1).trans rfl)

/-! ## The region's invariant -/

/-- Before position `n`: at the first point the accumulator holds anything; afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input window's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]
theorem leaves_out6 (c : Dev nD) (t : Fin cfg0.N) : (dats m 0 c).leavesExact 6 t = owns (c : Thread nD τ) (ms0_6 t) fullShare ((outsAt0 m c t.val t.isLt).2.1) := by
  unfold Dat.leavesExact; rw [liveAt0_6 t, after0_6]
theorem leaves_out5 (c : Dev nD) (t : Fin cfg0.N) (h1 : t.val % 16 = 15) : (dats m 0 c).leavesExact 5 t = owns (c : Thread nD τ) (ms0_5 t) fullShare ((outsAt0 m c t.val t.isLt).1) := by
  unfold Dat.leavesExact; rw [liveAt0_5 t ((hcond0_1 t).mpr h1), after0_5]
theorem leaves_idle5 (c : Dev nD) (t : Fin cfg0.N) (h1 : ¬t.val % 16 = 15) :
    (dats m 0 c).leavesExact 5 t = iprop(∃ d, owns (c : Thread nD τ) (ms0_5 t) fullShare ((dats m 0 c).before 5 t d)) :=
  Dat.leavesExact_idle (dats m 0 c) 5 t (idleAt0_5 t (fun h => h1 ((hcond0_1 t).mp h))) (noFlush0_5 t (fun h => h1 ((hcond0_1 t).mp h)))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_out6]
  have hN : t.val < 128 := lt_of_lt_of_eq t.isLt (show cfg0.N = 128 from N_0)
  by_cases h0 : t.val % 16 = 0
  · have h1 : ¬t.val % 16 = 15 := by omega
    rw [leaves_idle5 m c t h1, outsAt0_A m c t h0 h1]
    (try dsimp only)
    by_cases hz : t.val = 0
    · rw [PhiS_castSucc m c t, PhiS_zero m c _ _ hz, PhiA0_eq]
      iintro ⟨⟨⟨%ds, HS0⟩, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_A m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_A m c t h0 h1)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_A m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_A m c t h0 h1)
  · have hz : t.val ≠ 0 := fun h => h0 (by rw [h])
    by_cases h1 : t.val % 16 = 15
    · rw [leaves_out5 m c t h1, outsAt0_C m c t h0 h1]
      (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_C m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover5_C m c t h0 h1 _)
      unfold owns; iexists _; isplitr
      swap; · iexact H6
      ipureintro; exact View.read_writes_of_cover _ _ _ _ _ (cover6_C m c t h0 h1 _)
    · rw [leaves_idle5 m c t h1, outsAt0_B m c t h0 h1]
      (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_of_cover _ _ _ _ _ (coverS_B m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      unfold owns; iexists _; isplitr
      swap; · iexact H6
      ipureintro; exact View.read_writes_of_cover _ _ _ _ _ (cover6_B m c t h0 h1 _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates; every array of the pipeline ends at what the library computes
    from the proof data, every other buffer as the host lines after the region leave it. -/
theorem run_main : θ_run defs (onTc (τ := τ) (main (F := F))) (s₀ m ρ) (Pipeline.FramePost cfgs (dats m) 0 (Pipeline.afterTail₀ cfgs (dats m) 0 (V0 m) [hostOps1, hostOps1_1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m) (hin := hin m) (hout := hout m)

end Cert.KernelIdeal.Fr

end
-- ==== Proof.PieceValsI.lean ====
/-
  What the body's stores leave, point by point, as the body's arithmetic applied to the point's blocks: the
  accumulator becomes the block's edge-mask product with the point's 1024 rows of the padded column features, added
  to what it held (to the zero block at column block 0); the column-side window receives the transposed edge-mask
  product with the point's 1024 rows of the padded row features; and at column block 15 the row-side window
  receives the normalised, weighted, clamped rows of the accumulator just stored.
-/
import proofs.«133575_j89395449299805_2_alg».proof.Proof.FrameDataI
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The 1024 rows of the resident padded column features that point `t` loads (rows of column block `t % 16`). -/
def rowsV (t : Fin cfg0.N) (x2 : Vec F S16384x128 .f32) : Vec F S1024x128 .f32 :=
  View.ld x2 (Rect.unit (k0_off2 (grid0.coords t)) S1024x128.size (Facts₀.k0_off2_inb (grid0.coords t)))
/-- The 1024 rows of the resident padded row features that point `t` loads (rows of row block `t / 16`). -/
def rowsU (t : Fin cfg0.N) (x1 : Vec F S8192x128 .f32) : Vec F S1024x128 .f32 :=
  View.ld x1 (Rect.unit (k0_off1 (grid0.coords t)) S1024x128.size (Facts₀.k0_off1_inb (grid0.coords t)))

/-- The accumulator read back whole after it was stored whole. -/
theorem scratch_back (xs0 : Vec F S1024x128 .f32) :
    View.ld (View.read (Elt F) (View.whole cc0_scratch0) ((Memref.isWhole_whole cc0_scratch0).unread xs0))
      (Rect.unit ![0, 0] S1024x128.size Facts₀.inb_S1024x128_S1024x128_0_0) = xs0 := by
  rw [View.ld_unit_zero (S := S1024x128) zero2]
  exact (Memref.isWhole_whole cc0_scratch0).read_unread xs0

theorem scrA (c : Dev nD) (t : Fin cfg0.N) (h0 h1) :
    rdS (runA m c t h0 h1).2.2.1 = k0_pay4 (iblk m c 0 t) (rowsV t (iblk m c 2 t)) (k0_pay3 (F := F)) := by
  unfold rdS
  rw [View.read_writes_eq_canon _ _ _ (coverS_A m c t h0 h1)]
  unfold runA kernelRun0_A
  dsimp only
  sl_unfold_run_names
  rw [View.canon_cons_unit_zero (S := S1024x128) zero2]
  simp only [View.readAt_eq_ld, Memref.IsWhole.read_unread, View.ld_unit_zero (S := S1024x1024) zero2]
  rw [View.readCov_unit_zero (S := S1024x128) _ zero2]
  rfl

theorem scrB (c : Dev nD) (t : Fin cfg0.N) (h0 h1) (xs0 : Vec F S1024x128 .f32) :
    rdS (runB m c t h0 h1 xs0).2.2.1 = k0_pay4 (iblk m c 0 t) (rowsV t (iblk m c 2 t)) xs0 := by
  unfold rdS
  rw [View.read_writes_eq_canon _ _ _ (coverS_B m c t h0 h1 xs0)]
  unfold runB kernelRun0_B
  dsimp only
  sl_unfold_run_names
  rw [View.canon_unit_zero (S := S1024x128) zero2]
  simp only [View.readAt_eq_ld, Memref.IsWhole.read_unread, View.ld_unit_zero (S := S1024x1024) zero2]
  exact congrArg (k0_pay4 (iblk m c 0 t) (rowsV t (iblk m c 2 t))) (scratch_back xs0)

theorem scrC (c : Dev nD) (t : Fin cfg0.N) (h0 h1) (xs0 : Vec F S1024x128 .f32) :
    rdS (runC m c t h0 h1 xs0).2.2.1 = k0_pay4 (iblk m c 0 t) (rowsV t (iblk m c 2 t)) xs0 := by
  unfold rdS
  rw [View.read_writes_eq_canon _ _ _ (coverS_C m c t h0 h1 xs0)]
  unfold runC kernelRun0_C
  dsimp only
  sl_unfold_run_names
  rw [View.canon_unit_zero (S := S1024x128) zero2]
  simp only [View.readAt_eq_ld, Memref.IsWhole.read_unread, View.ld_unit_zero (S := S1024x1024) zero2]
  exact congrArg (k0_pay4 (iblk m c 0 t) (rowsV t (iblk m c 2 t))) (scratch_back xs0)

theorem col6A (c : Dev nD) (t : Fin cfg0.N) (h0 h1) :
    rd6 (runA m c t h0 h1).2.1 = k0_pay5 (iblk m c 0 t) (rowsU t (iblk m c 1 t)) := by
  unfold rd6
  rw [View.read_writes_eq_canon _ _ _ (cover6_A m c t h0 h1)]
  unfold runA kernelRun0_A
  dsimp only
  sl_unfold_run_names
  rw [View.canon_unit_zero (S := S1x1024x128) zero3]
  simp only [View.readAt_eq_ld, Memref.IsWhole.read_unread, View.ld_unit_zero (S := S1024x1024) zero2]
  rfl

theorem col6B (c : Dev nD) (t : Fin cfg0.N) (h0 h1) (xs0 : Vec F S1024x128 .f32) :
    rd6 (runB m c t h0 h1 xs0).2.1 = k0_pay5 (iblk m c 0 t) (rowsU t (iblk m c 1 t)) := by
  unfold rd6
  rw [View.read_writes_eq_canon _ _ _ (cover6_B m c t h0 h1 xs0)]
  unfold runB kernelRun0_B
  dsimp only
  sl_unfold_run_names
  rw [View.canon_unit_zero (S := S1x1024x128) zero3]
  simp only [View.readAt_eq_ld, Memref.IsWhole.read_unread, View.ld_unit_zero (S := S1024x1024) zero2]
  rfl

theorem col6C (c : Dev nD) (t : Fin cfg0.N) (h0 h1) (xs0 : Vec F S1024x128 .f32) :
    rd6 (runC m c t h0 h1 xs0).2.1 = k0_pay5 (iblk m c 0 t) (rowsU t (iblk m c 1 t)) := by
  unfold rd6
  rw [View.read_writes_eq_canon _ _ _ (cover6_C m c t h0 h1 xs0)]
  unfold runC kernelRun0_C
  dsimp only
  sl_unfold_run_names
  rw [View.canon_unit_zero (S := S1x1024x128) zero3]
  simp only [View.readAt_eq_ld, Memref.IsWhole.read_unread, View.ld_unit_zero (S := S1024x1024) zero2]
  rfl

theorem row5C (c : Dev nD) (t : Fin cfg0.N) (h0 h1) (xs0 : Vec F S1024x128 .f32) :
    rd5 (runC m c t h0 h1 xs0).1 = k0_pay1 (k0_pay4 (iblk m c 0 t) (rowsV t (iblk m c 2 t)) xs0) (iblk m c 3 t) := by
  unfold rd5
  rw [View.read_writes_eq_canon _ _ _ (cover5_C m c t h0 h1 xs0)]
  unfold runC kernelRun0_C
  dsimp only
  sl_unfold_run_names
  rw [View.canon_unit_zero (S := S1024x32) zero2]
  simp only [View.readAt_eq_ld, Memref.IsWhole.read_unread, View.ld_unit_zero (S := S1024x1024) zero2, View.ld_unit_zero (S := S32x32) zero2]
  rw [View.readCov_unit_zero (S := S1024x128) _ zero2]
  exact congrArg (fun z => k0_pay1 (k0_pay4 (iblk m c 0 t) (rowsV t (iblk m c 2 t)) z) (iblk m c 3 t)) (scratch_back xs0)

end Cert.KernelIdeal.Fr

end
-- ==== Proof.Spec.lean ====
/-
  The result of the rating-graph aggregation, as one function of the argument arrays.

  `adj` is an 8192 × 16384 integer matrix; an entry is an EDGE when it lies in 1..5. For the row side,
  row `r`'s aggregate is the sum of the feature rows `v j` over the edges `(r, j)`, its degree the number of
  those edges; the aggregate is divided by the degree clamped below at 1 (so a row with no edge gives 0 / 1 = 0),
  multiplied into the 32 × 32 weight and clamped below at 0. The column side is the same with the matrix
  transposed: column `c` aggregates the rows `u r` over the edges `(r, c)`.

  Everything is on the extended reals, index by index, over literal extents.
-/
import Idealize.ShloMosaic.PureOps.Ideal
import Idealize.ShloMosaic.Lib.ValueIdx

noncomputable section

namespace Cert.RatingAgg

open Idealize.ShloMosaic Idealize.ShloMosaic.ValueIdx

abbrev SAdj : Shape := ⟨2, ![8192, 16384]⟩
abbrev SU : Shape := ⟨2, ![8192, 32]⟩
abbrev SV : Shape := ⟨2, ![16384, 32]⟩
abbrev SW : Shape := ⟨2, ![32, 32]⟩

/-- The edge test on one entry, as a bit: `1 ≤ a` and `a ≤ 5`, signed. -/
def edgeBit (a : BitVec 32) : BitVec 1 := IntOp.andi (IntOp.cmpi .sge a 1#32) (IntOp.cmpi .sle a 5#32)

/-- The edge indicator as an extended real: 1 on an edge, 0 elsewhere. -/
def edge (a : BitVec 32) : EReal := (((edgeBit a).toNat : ℝ) : EReal)

/-- Row `r`'s aggregate at feature `d`: the sum of `v j d` over the edges `(r, j)`. -/
def rowAgg (adj : SAdj.Idx → BitVec 32) (v : SV.Idx → EReal) (r : Fin 8192) (d : Fin 32) : EReal :=
  ∑ j : Fin 16384, edge (adj (ix2 r j)) * v (ix2 j d)

/-- Row `r`'s degree: the number of its edges. -/
def rowDeg (adj : SAdj.Idx → BitVec 32) (r : Fin 8192) : EReal :=
  ∑ j : Fin 16384, edge (adj (ix2 r j))

/-- Column `c`'s aggregate at feature `d`: the sum of `u r d` over the edges `(r, c)`. -/
def colAgg (adj : SAdj.Idx → BitVec 32) (u : SU.Idx → EReal) (c : Fin 16384) (d : Fin 32) : EReal :=
  ∑ r : Fin 8192, edge (adj (ix2 r c)) * u (ix2 r d)

/-- Column `c`'s degree. -/
def colDeg (adj : SAdj.Idx → BitVec 32) (c : Fin 16384) : EReal :=
  ∑ r : Fin 8192, edge (adj (ix2 r c))

/-- The row-side result at row `r`, output feature `o`. -/
def rowOut (adj : SAdj.Idx → BitVec 32) (v : SV.Idx → EReal) (wu : SW.Idx → EReal) (r : Fin 8192) (o : Fin 32) : EReal :=
  max (∑ d : Fin 32, Ideal.div (rowAgg adj v r d) (max (rowDeg adj r) 1) * wu (ix2 d o)) 0

/-- The column-side result at column `c`, output feature `o`. -/
def colOut (adj : SAdj.Idx → BitVec 32) (u : SU.Idx → EReal) (wv : SW.Idx → EReal) (c : Fin 16384) (o : Fin 32) : EReal :=
  max (∑ d : Fin 32, Ideal.div (colAgg adj u c d) (max (colDeg adj c) 1) * wv (ix2 d o)) 0

/-- The row-side result array. -/
def GU (adj : SAdj.Idx → BitVec 32) (v : SV.Idx → EReal) (wu : SW.Idx → EReal) : SU.Idx → EReal :=
  fun i => rowOut adj v wu (i 0) (i 1)

/-- The column-side result array. -/
def GV (adj : SAdj.Idx → BitVec 32) (u : SU.Idx → EReal) (wv : SW.Idx → EReal) : SV.Idx → EReal :=
  fun i => colOut adj u wv (i 0) (i 1)

theorem GU_ix2 (adj v wu) (r : Fin 8192) (o : Fin 32) : GU adj v wu (ix2 r o) = rowOut adj v wu r o := rfl
theorem GV_ix2 (adj u wv) (c : Fin 16384) (o : Fin 32) : GV adj u wv (ix2 c o) = colOut adj u wv c o := rfl

/-- The edge bit is 0 or 1, so the indicator is the real 0 or 1. -/
theorem edge_eq (a : BitVec 32) : edge a = if edgeBit a = 1#1 then 1 else 0 := by
  unfold edge
  rcases BitVec.eq_zero_or_eq_one (edgeBit a) with h | h <;> rw [h] <;> simp

end Cert.RatingAgg

end
-- ==== Proof.PayEdge.lean ====
/-
  The edge mask of a block and the zero block, read at an index, at the ideal values.

  The mask of a 1024 × 1024 block of integer entries is, entry by entry, the conversion to a real of the one-bit
  word "1 ≤ a and a ≤ 5" widened to 32 bits; a one-bit word widened without sign is 0 or 1, so its signed value
  is its natural value, and the narrowing to the shorter float format is the identity on ideal values.
-/
import proofs.«133575_j89395449299805_2_alg».proof.Proof.Gen.KernelIdeal.Skeleton
import proofs.«133575_j89395449299805_2_alg».proof.Proof.Spec
import Idealize.ShloMosaic.Lib.ValueIdx
import Idealize.ShloMosaic.PureOps.Ideal.Laws
import Idealize.ShloMosaic.Lib.Pipeline.Value

noncomputable section

namespace Cert.KernelIdeal.Pay

open Idealize.ShloMosaic Idealize.ShloMosaic.ValueIdx Cert.KernelIdeal Cert.KernelIdeal.Gen Cert.RatingAgg

variable [Cert.KernelIdeal.Facts]

/-- A one-bit word widened to 32 bits without sign has its natural value as signed value. -/
theorem oneBit_setWidth_toInt (b : BitVec 1) : (((b.setWidth 32).toInt : ℝ) : EReal) = (((b.toNat : ℝ)) : EReal) := by
  rcases BitVec.eq_zero_or_eq_one b with h | h <;> rw [h] <;> simp

/-- The mask at an entry is the edge indicator of the entry. -/
theorem pay2_apply (v0 : Vec Ideal S1024x1024 .i32) (p k : Fin 1024) :
    k0_pay2 (F := Ideal) v0 (ix2 p k) = edge (v0 (ix2 p k)) :=
  oneBit_setWidth_toInt (edgeBit (v0 (ix2 p k)))

/-- The zero block is zero at every entry. -/
theorem pay3_apply (p : Fin 1024) (q : Fin 128) : k0_pay3 (F := Ideal) (ix2 p q) = 0 := by
  unfold k0_pay3
  rw [shapeCast_self]
  exact Ideal.ofBits_zero_f32

end Cert.KernelIdeal.Pay

end
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.PayAcc.lean ====
/-
  The row-side accumulation step read at an index, at the ideal values: the accumulator block plus the product of
  the edge mask of the integer block with the feature block, entry by entry a sum over the 1024 columns of the block.
-/
import proofs.«133575_j89395449299805_2_alg».proof.Proof.PayEdge
import proofs.«133575_j89395449299805_2_alg».proof.Proof.LibDotRead

noncomputable section

namespace Cert.KernelIdeal.Pay

open Idealize.ShloMosaic Idealize.ShloMosaic.ValueIdx Cert.KernelIdeal Cert.KernelIdeal.Gen Cert.RatingAgg

variable [Cert.KernelIdeal.Facts]

/-- The block product's dimension numbers are rows × contraction by contraction × columns. -/
theorem dot_block_eq_plain :
    dot_S1024x1024_S1024x128_S1024x128_1_0_0_1_n_n = DotDims.plain 1024 1024 128 := rfl

/-- The accumulation step at an entry. -/
theorem pay4_apply (v0 : Vec Ideal S1024x1024 .i32) (v18 v26 : Vec Ideal S1024x128 .f32) (p : Fin 1024) (q : Fin 128) :
    k0_pay4 (F := Ideal) v0 v18 v26 (ix2 p q) = v26 (ix2 p q) + ∑ k : Fin 1024, edge (v0 (ix2 p k)) * v18 (ix2 k q) := by
  unfold k0_pay4
  simp only [shapeCast_self, addf_apply, dot_block_eq_plain]
  refine congrArg (v26 (ix2 p q) + ·) ?_
  refine (DotRead.matmul_plain_zero_apply 1024 1024 128 none (k0_pay2 v0) (truncf .bf16 v18 bitsLt_bf16_f32) p q).trans ?_
  refine Finset.sum_congr rfl fun k _ => ?_
  rw [pay2_apply, truncf_apply]

end Cert.KernelIdeal.Pay

end
-- ==== Proof.HostPad.lean ====
/-
  The feature padding ahead of the kernel, read at an index, at the ideal values.

  A feature matrix with 32 columns is widened to 128 columns by laying three pieces side by side along the
  column axis: the matrix itself (columns 0..31), one column of ones (column 32) and 95 columns of zeros
  (columns 33..127). Read at column d < 32 the result is the matrix's entry; read at column 32 it is 1.
-/
import proofs.«133575_j89395449299805_2_alg».proof.KernelIdeal
import proofs.«133575_j89395449299805_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostOps

open Idealize.ShloMosaic Idealize.ShloMosaic.ValueIdx
open Cert.KernelIdeal Cert.KernelIdeal.Facts₀

variable [Cert.KernelIdeal.Facts]

/-- The f32 word of 1.0 is the extended real 1. -/
theorem ofBits_one_f32 : Ideal.ofBits .f32 0x3F800000#32 = 1 := by
  simp [Ideal.ofBits, Ideal.ieee, -EReal.coe_mul]; norm_num

/-- The 16384-row feature matrix widened to 128 columns. -/
def padV (v : FVec Ideal S16384x32 .f32) : FVec Ideal S16384x128 .f32 :=
  concatenate S16384x128 1 [⟨S16384x32, v⟩, ⟨S16384x1, broadcastInDim S16384x1 ![] bcast_S_S16384x1 (constant (F := Ideal) S_ .f32 0x3F800000#32)⟩, ⟨S16384x95, broadcastInDim S16384x95 ![] bcast_S_S16384x95 (constant (F := Ideal) S_ .f32 0x00000000#32)⟩] concatenates_S16384x32_S16384x1_S16384x95_S16384x128_d1

/-- Columns 0..31 of the widened matrix are the matrix. -/
theorem padV_lo (v : FVec Ideal S16384x32 .f32) (j : Fin 16384) (d : Fin 32) :
    padV v (ix2 j (Fin.castLE (by decide : 32 ≤ 128) d)) = v (ix2 j d) := by
  unfold padV
  refine concatenate_apply_piece (t := S16384x128) 1 _ _ _ 0 (by simp) S16384x32 v rfl rfl 0 rfl (ix2 j d) ?_ ?_
  · intro b hb
    match b with
    | ⟨0, _⟩ => rfl
    | ⟨1, _⟩ => exact absurd rfl hb
  · show 0 + d.val = d.val
    omega

/-- Column 32 of the widened matrix is the column of ones. -/
theorem padV_one (v : FVec Ideal S16384x32 .f32) (j : Fin 16384) :
    padV v (ix2 j (32 : Fin 128)) = 1 := by
  unfold padV
  refine (concatenate_apply_piece (t := S16384x128) 1 _ _ _ 1 (by simp) S16384x1 _ rfl rfl 32 rfl (ix2 j (0 : Fin 1)) ?_ ?_).trans ?_
  · intro b hb
    match b with
    | ⟨0, _⟩ => rfl
    | ⟨1, _⟩ => exact absurd rfl hb
  · rfl
  · refine (broadcastInDim_apply (s := S_) (t := S16384x1) ![] bcast_S_S16384x1 _ _ (fun a => a.elim0) (fun a => a.elim0)).trans ?_
    exact ofBits_one_f32

/-- The 8192-row feature matrix widened to 128 columns. -/
def padU (u : FVec Ideal S8192x32 .f32) : FVec Ideal S8192x128 .f32 :=
  concatenate S8192x128 1 [⟨S8192x32, u⟩, ⟨S8192x1, broadcastInDim S8192x1 ![] bcast_S_S8192x1 (constant (F := Ideal) S_ .f32 0x3F800000#32)⟩, ⟨S8192x95, broadcastInDim S8192x95 ![] bcast_S_S8192x95 (constant (F := Ideal) S_ .f32 0x00000000#32)⟩] concatenates_S8192x32_S8192x1_S8192x95_S8192x128_d1

/-- Columns 0..31 of the widened matrix are the matrix. -/
theorem padU_lo (u : FVec Ideal S8192x32 .f32) (j : Fin 8192) (d : Fin 32) :
    padU u (ix2 j (Fin.castLE (by decide : 32 ≤ 128) d)) = u (ix2 j d) := by
  unfold padU
  refine concatenate_apply_piece (t := S8192x128) 1 _ _ _ 0 (by simp) S8192x32 u rfl rfl 0 rfl (ix2 j d) ?_ ?_
  · intro b hb
    match b with
    | ⟨0, _⟩ => rfl
    | ⟨1, _⟩ => exact absurd rfl hb
  · show 0 + d.val = d.val
    omega

/-- Column 32 of the widened matrix is the column of ones. -/
theorem padU_one (u : FVec Ideal S8192x32 .f32) (j : Fin 8192) :
    padU u (ix2 j (32 : Fin 128)) = 1 := by
  unfold padU
  refine (concatenate_apply_piece (t := S8192x128) 1 _ _ _ 1 (by simp) S8192x1 _ rfl rfl 32 rfl (ix2 j (0 : Fin 1)) ?_ ?_).trans ?_
  · intro b hb
    match b with
    | ⟨0, _⟩ => rfl
    | ⟨1, _⟩ => exact absurd rfl hb
  · rfl
  · refine (broadcastInDim_apply (s := S_) (t := S8192x1) ![] bcast_S_S8192x1 _ _ (fun a => a.elim0) (fun a => a.elim0)).trans ?_
    exact ofBits_one_f32

end Cert.KernelIdeal.HostOps

end
-- ==== Proof.FinalAlg.lean ====
/-
  The blocked sums of the aggregation, regrouped into the specification's sums.

  The 8192 rows are 8 blocks of 1024 rows, the 16384 columns 16 blocks of 1024 columns: row `1024·ib + p`, column
  `1024·jb + k`. A sum over the blocks of the sums within a block is the sum over all rows (columns): addition on the
  extended reals is commutative and associative, and nothing else is used, so nothing here asks for finiteness.

  The features are padded from 32 to 128 columns, the padded array agreeing with the features on columns 0..31 and
  being 1 on column 32. So the blocked products read at a padded column below 32 give the specification's aggregate,
  and read at column 32 they give the degree (each edge indicator times 1).
-/
import proofs.«133575_j89395449299805_2_alg».proof.Proof.Spec
import Mathlib.Algebra.BigOperators.Fin
import Mathlib.Logic.Equiv.Fin.Basic

noncomputable section

namespace Cert.RatingAgg.Final

open Idealize.ShloMosaic Idealize.ShloMosaic.ValueIdx Cert.RatingAgg

abbrev SVP : Shape := ⟨2, ![16384, 128]⟩
abbrev SUP : Shape := ⟨2, ![8192, 128]⟩

/-- Row p of row block ib. -/
def row8 (ib : Fin 8) (p : Fin 1024) : Fin 8192 := ⟨1024 * ib.val + p.val, by omega⟩
/-- Column k of column block jb. -/
def col16 (jb : Fin 16) (k : Fin 1024) : Fin 16384 := ⟨1024 * jb.val + k.val, by omega⟩

theorem row8_surj (r : Fin 8192) : ∃ (ib : Fin 8) (p : Fin 1024), r = row8 ib p :=
  ⟨⟨r.val / 1024, by omega⟩, ⟨r.val % 1024, by omega⟩, Fin.ext (by show r.val = 1024 * (r.val / 1024) + r.val % 1024; omega)⟩

theorem col16_surj (j : Fin 16384) : ∃ (jb : Fin 16) (k : Fin 1024), j = col16 jb k :=
  ⟨⟨j.val / 1024, by omega⟩, ⟨j.val % 1024, by omega⟩, Fin.ext (by show j.val = 1024 * (j.val / 1024) + j.val % 1024; omega)⟩

/-- A sum over the 16 column blocks of the sums within a block is the sum over all 16384 columns. -/
theorem sum_col16 {β : Type*} [AddCommMonoid β] (f : Fin 16384 → β) :
    ∑ jb : Fin 16, ∑ k : Fin 1024, f (col16 jb k) = ∑ j : Fin 16384, f j := by
  have e := Equiv.sum_comp (finProdFinEquiv (m := 16) (n := 1024)) (fun j : Fin (16 * 1024) => f j)
  rw [Fintype.sum_prod_type] at e
  refine Eq.trans (Finset.sum_congr rfl fun jb _ => Finset.sum_congr rfl fun k _ => congrArg f (Fin.ext ?_)) e
  show 1024 * jb.val + k.val = k.val + 1024 * jb.val
  omega

/-- A sum over the 8 row blocks of the sums within a block is the sum over all 8192 rows. -/
theorem sum_row8 {β : Type*} [AddCommMonoid β] (f : Fin 8192 → β) :
    ∑ b : Fin 8, ∑ r : Fin 1024, f (row8 b r) = ∑ r : Fin 8192, f r := by
  have e := Equiv.sum_comp (finProdFinEquiv (m := 8) (n := 1024)) (fun r : Fin (8 * 1024) => f r)
  rw [Fintype.sum_prod_type] at e
  refine Eq.trans (Finset.sum_congr rfl fun b _ => Finset.sum_congr rfl fun r _ => congrArg f (Fin.ext ?_)) e
  show 1024 * b.val + r.val = r.val + 1024 * b.val
  omega

/-- Row block ib's accumulator after its 16 column blocks, at row p, padded column q. -/
def accF (adj : SAdj.Idx → BitVec 32) (vp : SVP.Idx → EReal) (ib : Fin 8) (p : Fin 1024) (q : Fin 128) : EReal :=
  ∑ jb : Fin 16, ∑ k : Fin 1024, edge (adj (ix2 (row8 ib p) (col16 jb k))) * vp (ix2 (col16 jb k) q)

/-- The accumulator is the sum over all columns. -/
theorem accF_eq_sum (adj : SAdj.Idx → BitVec 32) (vp : SVP.Idx → EReal) (ib : Fin 8) (p : Fin 1024) (q : Fin 128) :
    accF adj vp ib p q = ∑ j : Fin 16384, edge (adj (ix2 (row8 ib p) j)) * vp (ix2 j q) :=
  sum_col16 fun j => edge (adj (ix2 (row8 ib p) j)) * vp (ix2 j q)

theorem row_final (adj : SAdj.Idx → BitVec 32) (v : SV.Idx → EReal) (vp : SVP.Idx → EReal) (wu : SW.Idx → EReal)
    (hlo : ∀ (j : Fin 16384) (d : Fin 32), vp (ix2 j (Fin.castLE (by decide : 32 ≤ 128) d)) = v (ix2 j d))
    (hone : ∀ j : Fin 16384, vp (ix2 j (32 : Fin 128)) = 1) (ib : Fin 8) (p : Fin 1024) (o : Fin 32) :
    max (∑ d : Fin 32, Ideal.div (accF adj vp ib p (Fin.castLE (by decide : 32 ≤ 128) d)) (max (accF adj vp ib p (32 : Fin 128)) 1) * wu (ix2 d o)) 0
      = rowOut adj v wu (row8 ib p) o := by
  have hdeg : accF adj vp ib p (32 : Fin 128) = rowDeg adj (row8 ib p) := by
    rw [accF_eq_sum]
    exact Finset.sum_congr rfl fun j _ => by rw [hone j, mul_one]
  have hagg : ∀ d : Fin 32, accF adj vp ib p (Fin.castLE (by decide : 32 ≤ 128) d) = rowAgg adj v (row8 ib p) d := fun d => by
    rw [accF_eq_sum]
    exact Finset.sum_congr rfl fun j _ => by rw [hlo j d]
  unfold rowOut
  rw [hdeg]
  exact congrArg (max · 0) (Finset.sum_congr rfl fun d _ => by rw [hagg d])

/-- Row block b's partial column sum at column c, padded feature q. -/
def partF (adj : SAdj.Idx → BitVec 32) (up : SUP.Idx → EReal) (b : Fin 8) (c : Fin 16384) (q : Fin 128) : EReal :=
  ∑ r : Fin 1024, edge (adj (ix2 (row8 b r) c)) * up (ix2 (row8 b r) q)

/-- The partial sums of the 8 row blocks add up to the sum over all rows. -/
theorem sum_partF (adj : SAdj.Idx → BitVec 32) (up : SUP.Idx → EReal) (c : Fin 16384) (q : Fin 128) :
    ∑ b : Fin 8, partF adj up b c q = ∑ r : Fin 8192, edge (adj (ix2 r c)) * up (ix2 r q) :=
  sum_row8 fun r => edge (adj (ix2 r c)) * up (ix2 r q)

theorem col_final (adj : SAdj.Idx → BitVec 32) (u : SU.Idx → EReal) (up : SUP.Idx → EReal) (wv : SW.Idx → EReal)
    (hlo : ∀ (r : Fin 8192) (d : Fin 32), up (ix2 r (Fin.castLE (by decide : 32 ≤ 128) d)) = u (ix2 r d))
    (hone : ∀ r : Fin 8192, up (ix2 r (32 : Fin 128)) = 1) (c : Fin 16384) (o : Fin 32) :
    max (∑ d : Fin 32, Ideal.div (∑ b : Fin 8, partF adj up b c (Fin.castLE (by decide : 32 ≤ 128) d)) (max (∑ b : Fin 8, partF adj up b c (32 : Fin 128)) 1) * wv (ix2 d o)) 0
      = colOut adj u wv c o := by
  have hdeg : ∑ b : Fin 8, partF adj up b c (32 : Fin 128) = colDeg adj c := by
    rw [sum_partF]
    exact Finset.sum_congr rfl fun r _ => by rw [hone r, mul_one]
  have hagg : ∀ d : Fin 32, ∑ b : Fin 8, partF adj up b c (Fin.castLE (by decide : 32 ≤ 128) d) = colAgg adj u c d := fun d => by
    rw [sum_partF]
    exact Finset.sum_congr rfl fun r _ => by rw [hlo r d]
  unfold colOut
  rw [hdeg]
  exact congrArg (max · 0) (Finset.sum_congr rfl fun d _ => by rw [hagg d])

/-- The accumulator as the kernel builds it: the blocks' products added one column block at a time, from 0. -/
theorem accF_eq_range (adj : SAdj.Idx → BitVec 32) (vp : SVP.Idx → EReal) (ib : Fin 8) (p : Fin 1024) (q : Fin 128) :
    accF adj vp ib p q = ∑ n ∈ Finset.range 16, (if h : n < 16 then ∑ k : Fin 1024, edge (adj (ix2 (row8 ib p) (col16 ⟨n, h⟩ k))) * vp (ix2 (col16 ⟨n, h⟩ k) q) else 0) := by
  rw [Finset.sum_range]
  exact Finset.sum_congr rfl fun jb _ => by rw [dif_pos jb.isLt]

end Cert.RatingAgg.Final

end
-- ==== Proof.BlockReads.lean ====
/-
  Each input window's block at a grid point, read at an index, at the ideal values.

  Point t of the 8 × 16 grid is row block t / 16, column block t % 16. The integer matrix is cut into 1024 × 1024
  blocks and point t takes block (t / 16, t % 16): entry (p, k) of the block is the matrix at row 1024·(t / 16) + p,
  column 1024·(t % 16) + k (a block's coordinate is block index × block size + the coordinate inside the block). The
  two padded feature buffers and the weight are resident: their block index is (0, 0) at every point and the block is
  the whole array. The body itself takes 1024 rows of each resident feature buffer, from row 1024·(t / 16) of the
  first and row 1024·(t % 16) of the second.
-/
import proofs.«133575_j89395449299805_2_alg».proof.Proof.FrameKitI
import proofs.«133575_j89395449299805_2_alg».proof.Proof.HostPad
import proofs.«133575_j89395449299805_2_alg».proof.Proof.FinalAlg
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr Cert.KernelIdeal.HostOps

variable (m : (ℓ : Loc nD τ sig) → Buf (Elt Ideal) ℓ)

open Cert.RatingAgg.Final (row8 col16)

/-- The row block of grid point `t`. -/
def ibOf (t : Fin cfg0.N) : Fin 8 := ⟨t.val / 16, by have := t.isLt; have : cfg0.N = 128 := N_0; omega⟩
/-- The column block of grid point `t`. -/
def jbOf (t : Fin cfg0.N) : Fin 16 := ⟨t.val % 16, Nat.mod_lt _ (by decide)⟩

/-- The integer matrix's block index at point `t` is (row block, column block). -/
theorem idx_facts0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)

/-- The integer block at point `t`, entry `(p, k)`, is the matrix at row `p` of the row block, column `k` of the
    column block. -/
theorem iblk0_apply (c : Dev nD) (t : Fin cfg0.N) (p k : Fin 1024) :
    iblk (F := Ideal) m c 0 t (ix2 p k) = V (F := Ideal) m c main_arg0 (ix2 (row8 (ibOf t) p) (col16 (jbOf t) k)) := by
  obtain ⟨e0, e1⟩ := idx_facts0 t
  show V m c main_arg0 (((cfg0.win 0).blk t).view.emb (ix2 p k)) = _
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 1024 + 1 * k.val = 1024 * (t.val % 16) + k.val; omega

/-- The two feature buffers and the weight are resident: their one block is the whole array at every point. -/
theorem idx_facts1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The first padded feature buffer's block is the whole buffer. -/
theorem iblk1_apply (c : Dev nD) (t : Fin cfg0.N) (r : Fin 8192) (q : Fin 128) :
    iblk (F := Ideal) m c 1 t (ix2 r q) = V (F := Ideal) m c main_v2 (ix2 r q) := by
  obtain ⟨e0, e1⟩ := idx_facts1 t
  show V m c main_v2 (((cfg0.win 1).blk t).view.emb (ix2 r q)) = _
  refine congrArg _ (funext fun a => Fin.ext ?_)
  match a with
  | ⟨0, _⟩ => show win0_1.index t (0 : Fin 2) * 8192 + 1 * r.val = r.val; omega
  | ⟨1, _⟩ => show win0_1.index t (1 : Fin 2) * 128 + 1 * q.val = q.val; omega

/-- The second padded feature buffer's block is the whole buffer. -/
theorem iblk2_apply (c : Dev nD) (t : Fin cfg0.N) (j : Fin 16384) (q : Fin 128) :
    iblk (F := Ideal) m c 2 t (ix2 j q) = V (F := Ideal) m c main_v5 (ix2 j q) := by
  obtain ⟨e0, e1⟩ := idx_facts2 t
  show V m c main_v5 (((cfg0.win 2).blk t).view.emb (ix2 j q)) = _
  refine congrArg _ (funext fun a => Fin.ext ?_)
  match a with
  | ⟨0, _⟩ => show win0_2.index t (0 : Fin 2) * 16384 + 1 * j.val = j.val; omega
  | ⟨1, _⟩ => show win0_2.index t (1 : Fin 2) * 128 + 1 * q.val = q.val; omega

/-- The row-side weight's block is the whole weight. -/
theorem iblk3_apply (c : Dev nD) (t : Fin cfg0.N) (d o : Fin 32) :
    iblk (F := Ideal) m c 3 t (ix2 d o) = V (F := Ideal) m c main_arg3 (ix2 d o) := by
  obtain ⟨e0, e1⟩ := idx_facts3 t
  show V m c main_arg3 (((cfg0.win 3).blk t).view.emb (ix2 d o)) = _
  refine congrArg _ (funext fun a => Fin.ext ?_)
  match a with
  | ⟨0, _⟩ => show win0_3.index t (0 : Fin 2) * 32 + 1 * d.val = d.val; omega
  | ⟨1, _⟩ => show win0_3.index t (1 : Fin 2) * 32 + 1 * o.val = o.val; omega

/-! ## The body's two row offsets into the resident buffers -/

theorem off1_facts : ∀ t : Fin cfg0.N, k0_off1 (grid0.coords t) 0 = 1024 * (t.val / 16) ∧ k0_off1 (grid0.coords t) 1 = 0 :=
  (by decide +kernel : ∀ t : Fin grid0.N, k0_off1 (grid0.coords t) 0 = 1024 * (t.val / 16) ∧ k0_off1 (grid0.coords t) 1 = 0)
theorem off2_facts : ∀ t : Fin cfg0.N, k0_off2 (grid0.coords t) 0 = 1024 * (t.val % 16) ∧ k0_off2 (grid0.coords t) 1 = 0 :=
  (by decide +kernel : ∀ t : Fin grid0.N, k0_off2 (grid0.coords t) 0 = 1024 * (t.val % 16) ∧ k0_off2 (grid0.coords t) 1 = 0)

/-- The rows of the first padded buffer the body loads at point `t` start at the row block's first row. -/
theorem off1_val (t : Fin cfg0.N) : k0_off1 (grid0.coords t) = ![1024 * (ibOf t).val, 0] := by
  obtain ⟨h0, h1⟩ := off1_facts t
  funext a
  match a with
  | ⟨0, _⟩ => exact h0
  | ⟨1, _⟩ => exact h1

/-- The rows of the second padded buffer the body loads at point `t` start at the column block's first row. -/
theorem off2_val (t : Fin cfg0.N) : k0_off2 (grid0.coords t) = ![1024 * (jbOf t).val, 0] := by
  obtain ⟨h0, h1⟩ := off2_facts t
  funext a
  match a with
  | ⟨0, _⟩ => exact h0
  | ⟨1, _⟩ => exact h1

end Cert.KernelIdeal.Val

end
-- ==== Proof.RowsAt.lean ====
/-
  The body's two row loads from the resident padded feature buffers, read at an index.

  At grid point t (row block t / 16, column block t % 16) the body takes 1024 consecutive rows of each resident
  buffer through a unit-stride rectangle: row k of the loaded block is row offset + 1·k of the buffer, and the
  offsets are 1024·(t / 16) for the first buffer and 1024·(t % 16) for the second; the columns are taken whole.
  The statements are about indexing only, so they hold for every float instance.
-/
import proofs.«133575_j89395449299805_2_alg».proof.Proof.BlockReads
import proofs.«133575_j89395449299805_2_alg».proof.Proof.PieceValsI

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr Cert.KernelIdeal.HostOps
open Cert.RatingAgg.Final (row8 col16)

variable {F : FTy → Type} [FloatOps F]

/-- Row `k` of the first buffer's loaded rows is row `k` of the row block. -/
theorem rowsU_apply (t : Fin cfg0.N) (x1 : Vec F S8192x128 .f32) (k : Fin 1024) (q : Fin 128) :
    rowsU (F := F) t x1 (ix2 k q) = x1 (ix2 (row8 (ibOf t) k) q) := by
  obtain ⟨h0, h1⟩ := off1_facts t
  unfold rowsU
  refine congrArg x1 (funext fun a => Fin.ext ?_)
  match a with
  | ⟨0, _⟩ => show k0_off1 (grid0.coords t) 0 + 1 * k.val = 1024 * (t.val / 16) + k.val; omega
  | ⟨1, _⟩ => show k0_off1 (grid0.coords t) 1 + 1 * q.val = q.val; omega

/-- Row `k` of the second buffer's loaded rows is row `k` of the column block. -/
theorem rowsV_apply (t : Fin cfg0.N) (x2 : Vec F S16384x128 .f32) (k : Fin 1024) (q : Fin 128) :
    rowsV (F := F) t x2 (ix2 k q) = x2 (ix2 (col16 (jbOf t) k) q) := by
  obtain ⟨h0, h1⟩ := off2_facts t
  unfold rowsV
  refine congrArg x2 (funext fun a => Fin.ext ?_)
  match a with
  | ⟨0, _⟩ => show k0_off2 (grid0.coords t) 0 + 1 * k.val = 1024 * (t.val % 16) + k.val; omega
  | ⟨1, _⟩ => show k0_off2 (grid0.coords t) 1 + 1 * q.val = q.val; omega

end Cert.KernelIdeal.Val

end
-- ==== Proof.AccInv.lean ====
/-
  The accumulator over the grid points, at the ideal values.

  Point t of the 8 × 16 grid is row block t / 16, column block t % 16. At column block 0 the body stores into the
  accumulator the zero block plus the point's product (the edge mask of the point's 1024 × 1024 block of the
  matrix times the point's 1024 rows of the padded features); at every other column block it stores what the
  accumulator held plus the point's product. So after point t the accumulator holds, entry by entry, the sum of the
  products of the column blocks 0 .. t % 16 of row block t / 16, and after column block 15 the sum over all 16
  column blocks. By induction on the point's number; only 0 + x = x and the splitting of a sum over a range at its
  last term are used, so nothing here asks for finiteness.
-/
import proofs.«133575_j89395449299805_2_alg».proof.Proof.PieceValsI
import proofs.«133575_j89395449299805_2_alg».proof.Proof.PayAcc
import proofs.«133575_j89395449299805_2_alg».proof.Proof.BlockReads
import proofs.«133575_j89395449299805_2_alg».proof.Proof.RowsAt
import proofs.«133575_j89395449299805_2_alg».proof.Proof.FinalAlg

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr Cert.KernelIdeal.Pay Cert.RatingAgg Cert.RatingAgg.Final

variable (m : (ℓ : Loc nD τ sig) → Buf (Elt Ideal) ℓ)

/-- One column block's product into row block ib's accumulator (0 past the 16 column blocks). -/
def bp (A : SAdj.Idx → BitVec 32) (vp : SVP.Idx → EReal) (ib : Fin 8) (n : ℕ) (p : Fin 1024) (q : Fin 128) : EReal :=
  if h : n < 16 then ∑ k : Fin 1024, edge (A (ix2 (row8 ib p) (col16 ⟨n, h⟩ k))) * vp (ix2 (col16 ⟨n, h⟩ k) q) else 0

/-- The product the body adds at point t, entry (p, q): the point's column block's product. -/
theorem block_prod (c : Dev nD) (t : Fin cfg0.N) (p : Fin 1024) (q : Fin 128) :
    ∑ k : Fin 1024, edge (iblk (F := Ideal) m c 0 t (ix2 p k)) * rowsV (F := Ideal) t (iblk (F := Ideal) m c 2 t) (ix2 k q)
      = bp (V (F := Ideal) m c main_arg0) (V (F := Ideal) m c main_v5) (ibOf t) (jbOf t).val p q := by
  unfold bp
  rw [dif_pos (jbOf t).isLt]
  refine Finset.sum_congr rfl fun k _ => ?_
  rw [iblk0_apply m c t p k, rowsV_apply t (iblk (F := Ideal) m c 2 t) k q, iblk2_apply m c t (col16 (jbOf t) k) q]

/-- The accumulation step at point t, entry (p, q): what the accumulator held plus the point's product. -/
theorem step_apply (c : Dev nD) (t : Fin cfg0.N) (xs0 : Vec Ideal S1024x128 .f32) (p : Fin 1024) (q : Fin 128) :
    k0_pay4 (F := Ideal) (iblk (F := Ideal) m c 0 t) (rowsV (F := Ideal) t (iblk (F := Ideal) m c 2 t)) xs0 (ix2 p q)
      = xs0 (ix2 p q) + bp (V (F := Ideal) m c main_arg0) (V (F := Ideal) m c main_v5) (ibOf t) (jbOf t).val p q :=
  (pay4_apply (iblk (F := Ideal) m c 0 t) (rowsV (F := Ideal) t (iblk (F := Ideal) m c 2 t)) xs0 p q).trans
    (congrArg (xs0 (ix2 p q) + ·) (block_prod m c t p q))

/-- The third component of a triple. -/
theorem snd_snd_mk {α β γ : Type} (a : α) (b : β) (x : γ) : (a, b, x).2.2 = x := rfl

/-- The accumulator after a point at column block 0. -/
theorem acc_A (c : Dev nD) (t : Fin cfg0.N) (h0 : t.val % 16 = 0) (h1 : ¬t.val % 16 = 15) :
    (outsAt0 (F := Ideal) m c t.val t.isLt).2.2
      = k0_pay4 (F := Ideal) (iblk (F := Ideal) m c 0 t) (rowsV (F := Ideal) t (iblk (F := Ideal) m c 2 t)) (k0_pay3 (F := Ideal)) := by
  rw [outsAt0_A m c t h0 h1, snd_snd_mk]
  exact scrA m c t h0 h1

/-- The accumulator after a point at any other column block. -/
theorem acc_BC (c : Dev nD) (t : Fin cfg0.N) (h0 : ¬t.val % 16 = 0) :
    (outsAt0 (F := Ideal) m c t.val t.isLt).2.2
      = k0_pay4 (F := Ideal) (iblk (F := Ideal) m c 0 t) (rowsV (F := Ideal) t (iblk (F := Ideal) m c 2 t))
          (outsAt0 (F := Ideal) m c (t.val - 1) (Nat.lt_of_le_of_lt (Nat.sub_le _ _) t.isLt)).2.2 := by
  by_cases h1 : t.val % 16 = 15
  · rw [outsAt0_C m c t h0 h1, snd_snd_mk]
    exact scrC m c t h0 h1 _
  · rw [outsAt0_B m c t h0 h1, snd_snd_mk]
    exact scrB m c t h0 h1 _

/-- The accumulator after the point numbered n: the products of the column blocks up to the point's own. -/
theorem acc_inv_nat (c : Dev nD) (n : ℕ) : ∀ (t : Fin cfg0.N), t.val = n → ∀ (p : Fin 1024) (q : Fin 128),
    (outsAt0 (F := Ideal) m c t.val t.isLt).2.2 (ix2 p q)
      = ∑ j ∈ Finset.range ((jbOf t).val + 1), bp (V (F := Ideal) m c main_arg0) (V (F := Ideal) m c main_v5) (ibOf t) j p q := by
  induction n using Nat.strong_induction_on with
  | _ n ih =>
    intro t ht p q
    by_cases h0 : t.val % 16 = 0
    · have h1 : ¬ t.val % 16 = 15 := by omega
      have hj : (jbOf t).val = 0 := h0
      rw [acc_A m c t h0 h1, step_apply m c t _ p q, pay3_apply, zero_add, hj, Finset.sum_range_one]
    · have hn' : t.val - 1 < cfg0.N := Nat.lt_of_le_of_lt (Nat.sub_le _ _) t.isLt
      have IH := ih (t.val - 1) (by omega) ⟨t.val - 1, hn'⟩ rfl p q
      have hib : ibOf ⟨t.val - 1, hn'⟩ = ibOf t := Fin.ext (by show (t.val - 1) / 16 = t.val / 16; omega)
      have hjb : (jbOf ⟨t.val - 1, hn'⟩).val + 1 = (jbOf t).val := by show (t.val - 1) % 16 + 1 = t.val % 16; omega
      rw [hib, hjb] at IH
      rw [acc_BC m c t h0, step_apply m c t _ p q, Finset.sum_range_succ]
      exact congrArg (· + bp (V (F := Ideal) m c main_arg0) (V (F := Ideal) m c main_v5) (ibOf t) (jbOf t).val p q) IH

theorem acc_inv (c : Dev nD) (t : Fin cfg0.N) (p : Fin 1024) (q : Fin 128) :
    (outsAt0 (F := Ideal) m c t.val t.isLt).2.2 (ix2 p q)
      = ∑ n ∈ Finset.range ((jbOf t).val + 1), bp (V (F := Ideal) m c main_arg0) (V (F := Ideal) m c main_v5) (ibOf t) n p q :=
  acc_inv_nat m c t.val t rfl p q

theorem acc_last (c : Dev nD) (t : Fin cfg0.N) (h1 : t.val % 16 = 15) (p : Fin 1024) (q : Fin 128) :
    (outsAt0 (F := Ideal) m c t.val t.isLt).2.2 (ix2 p q) = accF (V (F := Ideal) m c main_arg0) (V (F := Ideal) m c main_v5) (ibOf t) p q := by
  have hj : (jbOf t).val + 1 = 16 := by show t.val % 16 + 1 = 16; omega
  rw [acc_inv m c t p q, accF_eq_range, hj]
  rfl

end Cert.KernelIdeal.Val

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.PayOut.lean ====
/-
  The row-side finishing step read at an index, at the ideal values.

  The accumulated block holds, per row, the 32 aggregate columns and, in column 32, the degree. The step divides
  each aggregate column by the degree clamped below at one, multiplies the 1024 × 32 quotient into the 32 × 32
  weight (a sum over the 32 features) and clamps the product below at zero.
-/
import proofs.«133575_j89395449299805_2_alg».proof.Proof.PayEdge
import proofs.«133575_j89395449299805_2_alg».proof.Proof.LibDotRead
import proofs.«133575_j89395449299805_2_alg».proof.Proof.LibKeepdims
import Idealize.ShloMosaic.Lib.ValueLayout
import Idealize.ShloMosaic.Lib.IdealHost

noncomputable section

namespace Cert.KernelIdeal.Pay

open Idealize.ShloMosaic Idealize.ShloMosaic.ValueIdx Cert.KernelIdeal Cert.KernelIdeal.Gen Cert.RatingAgg

variable [Cert.KernelIdeal.Facts]

/-- The output product's dimension numbers are rows × contraction by contraction × columns. -/
theorem dot_out_eq_plain :
    dot_S1024x32_S32x32_S1024x32_1_0_0_1_n_n = DotDims.plain 1024 32 32 := rfl

/-- The mean row at a feature: the aggregate column divided by the degree column clamped below at one. -/
theorem mean_apply (v37 : Vec Ideal S1024x128 .f32) (p : Fin 1024) (d : Fin 32) :
    divf (extractStridedSlice S1024x32 ![0, 0] v37 slices_S1024x128_o0_0_S1024x32)
        (broadcastTo S1024x32
          (maximumf (extractStridedSlice S1024x1 ![0, 32] v37 slices_S1024x128_o0_32_S1024x1)
            (broadcast S1024x1 (FloatOps.ofBits (F := Ideal) .f32 0x3F800000#32)))
          broadcasts_S1024x1_S1024x32) (ix2 p d)
      = Ideal.div (v37 (ix2 p (Fin.castLE (by decide : 32 ≤ 128) d))) (max (v37 (ix2 p (32 : Fin 128))) 1) := by
  rw [divf_apply, slice2_axis1_apply 0 v37 _ p d (Fin.castLE (by decide : 32 ≤ 128) d) (Nat.zero_add _).symm,
    KeepdimsLayout.broadcastTo_a1_ab_apply, maximumf_apply, broadcast_apply,
    slice2_axis1_apply 32 v37 _ p (0 : Fin 1) (32 : Fin 128) rfl]
  exact congrArg (fun t => Ideal.div _ (max _ t)) Ideal.ofBits_one_f32

/-- The finishing step at an entry. -/
theorem pay1_apply (v37 : Vec Ideal S1024x128 .f32) (v45 : Vec Ideal S32x32 .f32) (p : Fin 1024) (o : Fin 32) :
    k0_pay1 (F := Ideal) v37 v45 (ix2 p o)
      = max (∑ d : Fin 32, Ideal.div (v37 (ix2 p (Fin.castLE (by decide : 32 ≤ 128) d))) (max (v37 (ix2 p (32 : Fin 128))) 1) * v45 (ix2 d o)) 0 := by
  unfold k0_pay1
  simp only [maximumf_apply, broadcast_apply, dot_out_eq_plain]
  refine (congrArg (max _) Ideal.ofBits_zero_f32).trans ?_
  refine congrArg (max · (0 : EReal)) ?_
  refine (DotRead.matmul_plain_zero_apply 1024 32 32 none _ _ p o).trans ?_
  refine Finset.sum_congr rfl fun d _ => ?_
  rw [truncf_apply, truncf_apply, mean_apply]

end Cert.KernelIdeal.Pay

end
-- ==== Proof.EntryVals.lean ====
/-
  What the two padded feature buffers hold when the pipelined region is entered, at the ideal values.

  Ten host lines run before the region: a constant one and a constant zero are broadcast to a column of ones and 95
  columns of zeros, and the 8192-row feature argument is laid beside them along the column axis; the same is done for
  the 16384-row feature argument. Each padded buffer is written once, by its concatenation, whose three operands are
  read in the memory the lines before it leave; no later line writes them. So each buffer holds the widening of its
  argument as the launch memory has it.
-/
import proofs.«133575_j89395449299805_2_alg».proof.Proof.FrameKitI
import proofs.«133575_j89395449299805_2_alg».proof.Proof.HostPad

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr Cert.KernelIdeal.HostOps

variable (m : (ℓ : Loc nD τ sig) → Buf (Elt Ideal) ℓ)

/-- Three pieces laid side by side are determined by the pieces. -/
theorem concatV_congr {a a' : FVec Ideal S16384x32 .f32} {b b' : FVec Ideal S16384x1 .f32} {e e' : FVec Ideal S16384x95 .f32}
    (ha : a = a') (hb : b = b') (he : e = e') :
    concatenate S16384x128 1 [⟨S16384x32, a⟩, ⟨S16384x1, b⟩, ⟨S16384x95, e⟩] concatenates_S16384x32_S16384x1_S16384x95_S16384x128_d1
      = concatenate S16384x128 1 [⟨S16384x32, a'⟩, ⟨S16384x1, b'⟩, ⟨S16384x95, e'⟩] concatenates_S16384x32_S16384x1_S16384x95_S16384x128_d1 := by
  subst ha hb he; rfl

/-- The buffers as the last host line finds them: the launch memory after the nine lines before it. -/
abbrev W9 (c : Dev nD) : Valuation τ sig (Elt Ideal) := StableHlo.after (hostOps0 (F := Ideal)).dropLast (fun b => m (c, b))

theorem W9_arg2 (c : Dev nD) : W9 m c (Proc.devRef .tc main_arg2) = m ((c : Thread nD τ).loc main_arg2) := by
  show StableHlo.after (hostOps0 (F := Ideal)).dropLast (fun b => m (c, b)) (Proc.devRef .tc main_arg2) = _
  simp only [hostOps0, List.dropLast_cons₂, List.dropLast_singleton]; after_results
theorem W9_v3 (c : Dev nD) : W9 m c (Proc.devRef .tc main_v3)
    = broadcastInDim S16384x1 ![] bcast_S_S16384x1 (constant (F := Ideal) S_ .f32 0x3F800000#32) := by
  show StableHlo.after (hostOps0 (F := Ideal)).dropLast (fun b => m (c, b)) (Proc.devRef .tc main_v3) = _
  simp only [hostOps0, List.dropLast_cons₂, List.dropLast_singleton]; after_results
theorem W9_v4 (c : Dev nD) : W9 m c (Proc.devRef .tc main_v4)
    = broadcastInDim S16384x95 ![] bcast_S_S16384x95 (constant (F := Ideal) S_ .f32 0x00000000#32) := by
  show StableHlo.after (hostOps0 (F := Ideal)).dropLast (fun b => m (c, b)) (Proc.devRef .tc main_v4) = _
  simp only [hostOps0, List.dropLast_cons₂, List.dropLast_singleton]; after_results

/-- When the region is entered the second padded feature buffer holds the 16384-row feature argument widened to
    128 columns. -/
theorem V_v5 (c : Dev nD) : V (F := Ideal) m c main_v5 = padV (m ((c : Thread nD τ).loc main_arg2)) := by
  show StableHlo.after (List.flatten [hostOps0]) (fun b => m (c, b)) (Proc.devRef .tc main_v5) = _
  simp only [hostOps0, List.flatten_cons, List.flatten_nil, List.append_nil]
  after_results
  unfold padV
  refine concatV_congr ?_ ?_ ?_
  · exact W9_arg2 m c
  · exact W9_v3 m c
  · exact W9_v4 m c

/-- Three pieces laid side by side are determined by the pieces. -/
theorem concatU_congr {a a' : FVec Ideal S8192x32 .f32} {b b' : FVec Ideal S8192x1 .f32} {e e' : FVec Ideal S8192x95 .f32}
    (ha : a = a') (hb : b = b') (he : e = e') :
    concatenate S8192x128 1 [⟨S8192x32, a⟩, ⟨S8192x1, b⟩, ⟨S8192x95, e⟩] concatenates_S8192x32_S8192x1_S8192x95_S8192x128_d1
      = concatenate S8192x128 1 [⟨S8192x32, a'⟩, ⟨S8192x1, b'⟩, ⟨S8192x95, e'⟩] concatenates_S8192x32_S8192x1_S8192x95_S8192x128_d1 := by
  subst ha hb he; rfl

/-- The buffers as the fifth host line finds them: the launch memory after the four lines before it. -/
abbrev W4 (c : Dev nD) : Valuation τ sig (Elt Ideal) := StableHlo.after ((hostOps0 (F := Ideal)).take 4) (fun b => m (c, b))

theorem W4_arg1 (c : Dev nD) : W4 m c (Proc.devRef .tc main_arg1) = m ((c : Thread nD τ).loc main_arg1) := by
  show StableHlo.after ((hostOps0 (F := Ideal)).take 4) (fun b => m (c, b)) (Proc.devRef .tc main_arg1) = _
  simp only [hostOps0, List.take_succ_cons, List.take_zero]; after_results
theorem W4_v0 (c : Dev nD) : W4 m c (Proc.devRef .tc main_v0)
    = broadcastInDim S8192x1 ![] bcast_S_S8192x1 (constant (F := Ideal) S_ .f32 0x3F800000#32) := by
  show StableHlo.after ((hostOps0 (F := Ideal)).take 4) (fun b => m (c, b)) (Proc.devRef .tc main_v0) = _
  simp only [hostOps0, List.take_succ_cons, List.take_zero]; after_results
theorem W4_v1 (c : Dev nD) : W4 m c (Proc.devRef .tc main_v1)
    = broadcastInDim S8192x95 ![] bcast_S_S8192x95 (constant (F := Ideal) S_ .f32 0x00000000#32) := by
  show StableHlo.after ((hostOps0 (F := Ideal)).take 4) (fun b => m (c, b)) (Proc.devRef .tc main_v1) = _
  simp only [hostOps0, List.take_succ_cons, List.take_zero]; after_results

/-- When the region is entered the first padded feature buffer holds the 8192-row feature argument widened to
    128 columns. -/
theorem V_v2 (c : Dev nD) : V (F := Ideal) m c main_v2 = padU (m ((c : Thread nD τ).loc main_arg1)) := by
  show StableHlo.after (List.flatten [hostOps0]) (fun b => m (c, b)) (Proc.devRef .tc main_v2) = _
  simp only [hostOps0, List.flatten_cons, List.flatten_nil, List.append_nil]
  after_results
  unfold padU
  refine concatU_congr ?_ ?_ ?_
  · exact W4_arg1 m c
  · exact W4_v0 m c
  · exact W4_v1 m c

end Cert.KernelIdeal.Val

end
-- ==== Proof.RowArray.lean ====
/-
  The row-side array after the region. Its window is written back only at column block 15 of each row block, and
  what is written there is the normalised, weighted, clamped rows of the accumulator, which by then holds the whole
  row aggregate (all 16 column blocks) with the degree in padded column 32. The eight blocks written back tile the
  array, so the array ends as the specification's row-side result.
-/
import proofs.«133575_j89395449299805_2_alg».proof.Proof.AccInv
import proofs.«133575_j89395449299805_2_alg».proof.Proof.PayOut
import proofs.«133575_j89395449299805_2_alg».proof.Proof.EntryVals

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.Pay Cert.KernelIdeal.HostOps
open Cert.RatingAgg Cert.RatingAgg.Final

variable (m : (ℓ : Loc nD τ sig) → Buf (Elt Ideal) ℓ)

/-- The row-side window's block index at point `t`: row block `t / 16`, the one column block. -/
theorem idx_facts5 : ∀ t : Fin cfg0.N, win0_5.index t (0 : Fin 2) = t.val / 16 ∧ win0_5.index t (1 : Fin 2) = 0 :=
  (by decide +kernel : ∀ t : Fin grid0.N, win0_5.index t (0 : Fin 2) = t.val / 16 ∧ win0_5.index t (1 : Fin 2) = 0)

/-- Element `(p, o)` of the block written back at point `t` is array element `(1024 · (t / 16) + p, o)`. -/
theorem emb5 (t : Fin cfg0.N) (p : Fin 1024) (o : Fin 32) :
    ((cfg0.win 5).blk t).view.emb (ix2 p o) = ix2 (row8 (ibOf t) p) o := by
  obtain ⟨e0, e1⟩ := idx_facts5 t
  funext a; apply Fin.ext
  match a with
  | ⟨0, _⟩ => show win0_5.index t (0 : Fin 2) * 1024 + 1 * p.val = 1024 * (t.val / 16) + p.val; omega
  | ⟨1, _⟩ => show win0_5.index t (1 : Fin 2) * 32 + 1 * o.val = o.val; omega

/-- At a point of column block 15 the accumulator just stored is what the row-side result is computed from. -/
theorem acc_now (c : Dev nD) (t : Fin cfg0.N) (h0 : ¬t.val % 16 = 0) (h1 : t.val % 16 = 15) :
    k0_pay4 (F := Ideal) (iblk m c 0 t) (rowsV t (iblk m c 2 t)) (outsAt0 m c (t.val - 1) (Nat.lt_of_le_of_lt (Nat.sub_le _ _) t.isLt)).2.2
      = (outsAt0 (F := Ideal) m c t.val t.isLt).2.2 :=
  ((congrArg (fun z => z.2.2) (outsAt0_C m c t h0 h1)).trans (scrC m c t h0 h1 _)).symm

/-- What point `t` of column block 15 writes back is its block of the specification's row-side result. -/
theorem flushed5_eq (c : Dev nD) (t : Fin cfg0.N) (hf : (cfg0.win 5).flush t = true) :
    (dats (F := Ideal) m 0 c).flushed 5 t
      = ((cfg0.win 5).blk t).view.read (Elt Ideal) (GU (m ((c : Thread nD τ).loc main_arg0)) (m ((c : Thread nD τ).loc main_arg2)) (m ((c : Thread nD τ).loc main_arg3))) := by
  have h1 : t.val % 16 = 15 := (flush0_5 t).mp hf
  have h0 : ¬t.val % 16 = 0 := by omega
  show (cfg0.win 5).cut (grid0.coords t) ((dats m 0 c).after 5 t) = _
  rw [after0_5, outsAt0_C m c t h0 h1]
  dsimp only
  rw [row5C m c t h0 h1, acc_now m c t h0 h1]
  funext j
  obtain ⟨p, o, rfl⟩ : ∃ (p : Fin 1024) (o : Fin 32), j = ix2 p o := ⟨j 0, j 1, eq_ix2 j⟩
  show k0_pay1 (F := Ideal) (outsAt0 m c t.val t.isLt).2.2 (iblk m c 3 t) (ix2 p o)
      = GU (m ((c : Thread nD τ).loc main_arg0)) (m ((c : Thread nD τ).loc main_arg2)) (m ((c : Thread nD τ).loc main_arg3)) (((cfg0.win 5).blk t).view.emb (ix2 p o))
  rw [emb5 t p o, GU_ix2]
  refine (pay1_apply (outsAt0 m c t.val t.isLt).2.2 (iblk m c 3 t) p o).trans ?_
  have hA : V (F := Ideal) m c main_arg0 = m ((c : Thread nD τ).loc main_arg0) := V_main_arg0 m c
  have hW : V (F := Ideal) m c main_arg3 = m ((c : Thread nD τ).loc main_arg3) := V_main_arg3 m c
  have hV : V (F := Ideal) m c main_v5 = padV (m ((c : Thread nD τ).loc main_arg2)) := V_v5 m c
  have e32 : (outsAt0 (F := Ideal) m c t.val t.isLt).2.2 (ix2 p (32 : Fin 128))
      = accF (m ((c : Thread nD τ).loc main_arg0)) (padV (m ((c : Thread nD τ).loc main_arg2))) (ibOf t) p (32 : Fin 128) := by
    rw [acc_last m c t h1 p (32 : Fin 128), hA, hV]
  have elo : ∀ d : Fin 32, (outsAt0 (F := Ideal) m c t.val t.isLt).2.2 (ix2 p (Fin.castLE (by decide : 32 ≤ 128) d))
      = accF (m ((c : Thread nD τ).loc main_arg0)) (padV (m ((c : Thread nD τ).loc main_arg2))) (ibOf t) p (Fin.castLE (by decide : 32 ≤ 128) d) := by
    intro d; rw [acc_last m c t h1 p _, hA, hV]
  have ew : ∀ d : Fin 32, iblk (F := Ideal) m c 3 t (ix2 d o) = m ((c : Thread nD τ).loc main_arg3) (ix2 d o) := by
    intro d; rw [iblk3_apply m c t d o, hW]
  rw [e32]
  simp only [elo, ew]
  exact row_final (m ((c : Thread nD τ).loc main_arg0)) (m ((c : Thread nD τ).loc main_arg2)) (padV (m ((c : Thread nD τ).loc main_arg2)))
    (m ((c : Thread nD τ).loc main_arg3)) (fun j d => padV_lo _ j d) (fun j => padV_one _ j) (ibOf t) p o

/-- An index of the array is in point `t`'s block iff each coordinate is in the block's range on its axis. -/
theorem mem_blk5 (t : Fin cfg0.N) (i : S8192x32.Idx) :
    i ∈ ((cfg0.win 5).blk t).view.set ↔ ∀ a : Fin 2, win0_5.index t a * S1024x32.size a ≤ (i a).val ∧ (i a).val < win0_5.index t a * S1024x32.size a + S1024x32.size a := by
  show i ∈ ((View.whole main_v6_0).slice (win0_5.rect t)).set ↔ _
  rw [View.set_slice_whole, Rect.mem_set_unit]
  exact Iff.rfl

/-- Every row of the array lies in the block written back at column block 15 of its row block. -/
theorem cover5 (i : S8192x32.Idx) : ∃ t : Fin cfg0.N, (cfg0.win 5).flush t = true ∧ i ∈ ((cfg0.win 5).blk t).view.set := by
  have hi0 : (i 0).val < 8192 := (i 0).isLt
  have hi1 : (i 1).val < 32 := (i 1).isLt
  have hN : cfg0.N = 128 := N_0
  refine ⟨⟨16 * ((i 0).val / 1024) + 15, by omega⟩, (flush0_5 _).mpr (by show (16 * ((i 0).val / 1024) + 15) % 16 = 15; omega), ?_⟩
  rw [mem_blk5]
  obtain ⟨e0, e1⟩ := idx_facts5 ⟨16 * ((i 0).val / 1024) + 15, by omega⟩
  intro a
  match a with
  | ⟨0, _⟩ =>
    show win0_5.index _ (0 : Fin 2) * 1024 ≤ (i 0).val ∧ (i 0).val < win0_5.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win0_5.index _ (1 : Fin 2) * 32 ≤ (i 1).val ∧ (i 1).val < win0_5.index _ (1 : Fin 2) * 32 + 32
    rw [e1]; omega

/-- THE ROW-SIDE ARRAY after the run is the specification's row-side result of the argument arrays. -/
theorem arr5 (c : Dev nD) :
    (dats (F := Ideal) m 0 c).arrAt 5 cfg0.N
      = GU (m ((c : Thread nD τ).loc main_arg0)) (m ((c : Thread nD τ).loc main_arg2)) (m ((c : Thread nD τ).loc main_arg3)) :=
  (dats m 0 c).arrAt_eq_of_cover 5 _ (fun t hf => flushed5_eq m c t hf) cover5

end Cert.KernelIdeal.Val

end
-- ==== Proof.PayCol.lean ====
/-
  The column-side partial product read at an index, at the ideal values.

  The edge mask of a 1024 × 1024 integer block, contracted on its ROWS against the 1024 × 128 feature block: entry
  (p, q) is the sum over the block's rows k of the mask at (k, p) times the features at (k, q). The product with the
  left operand contracted on its first axis is read like the plain one: the contraction index type is re-indexed to
  Fin 1024, and the operands' indices at an output index and a contraction position are computed axis by axis.
  The result is laid under one leading unit axis.
-/
import proofs.«133575_j89395449299805_2_alg».proof.Proof.PayEdge
import Idealize.ShloMosaic.Lib.ValueLayout

noncomputable section

namespace Cert.KernelIdeal.Pay

open Idealize.ShloMosaic Idealize.ShloMosaic.ValueIdx Cert.KernelIdeal Cert.KernelIdeal.Gen Cert.RatingAgg

variable [Cert.KernelIdeal.Facts]

/-- The dimension numbers of the product with the left operand contracted on its rows. -/
abbrev DT : DotDims S1024x1024 S1024x128 S1024x128 := dot_S1024x1024_S1024x128_S1024x128_0_0_1_1_n_n

/-- The left operand's row is the contraction position. -/
theorem dt_lhs_row (i : S1024x128.Idx) (q : DT.contr.Idx) : (DT.lhsIdx i q 0).val = (q ⟨0, Nat.one_pos⟩).val :=
  DT.lhsIdx_val_of_single rfl i q

/-- The left operand's column is the output's row. -/
theorem dt_lhs_col (i : S1024x128.Idx) (q : DT.contr.Idx) : (DT.lhsIdx i q 1).val = (i 0).val := by
  unfold DotDims.lhsIdx
  rw [dif_neg (show ¬(1 : Fin S1024x1024.rank) ∈ DT.lhsBatch from List.not_mem_nil),
    dif_pos (show (1 : Fin S1024x1024.rank) ∈ DT.lhsNonContracting from List.mem_singleton.mpr rfl)]
  rfl

/-- The right operand's row is the contraction position. -/
theorem dt_rhs_row (i : S1024x128.Idx) (q : DT.contr.Idx) : (DT.rhsIdx i q 0).val = (q ⟨0, Nat.one_pos⟩).val :=
  DT.rhsIdx_val_of_single rfl i q

/-- The right operand's column is the output's column. -/
theorem dt_rhs_col (i : S1024x128.Idx) (q : DT.contr.Idx) : (DT.rhsIdx i q 1).val = (i 1).val := by
  unfold DotDims.rhsIdx
  rw [dif_neg (show ¬(1 : Fin S1024x128.rank) ∈ DT.rhsBatch from List.not_mem_nil),
    dif_pos (show (1 : Fin S1024x128.rank) ∈ DT.rhsNonContracting from List.mem_singleton.mpr rfl)]
  rfl

/-- Entry `(r, c)` of `Aᵀ · B` accumulated into zero is `∑ k, A (k, r) * B (k, c)`. -/
theorem matmul_dt_zero_apply {φ₁ φ₂ : FTy} (prec : Option ContractPrecision)
    (lhs : FVec Ideal S1024x1024 φ₁) (rhs : FVec Ideal S1024x128 φ₂) (r : Fin 1024) (c : Fin 128) :
    FloatOps.matmul DT prec lhs rhs (constant (F := Ideal) S1024x128 .f32 0x00000000#32) (ix2 r c)
      = ∑ k : Fin 1024, lhs (ix2 k r) * rhs (ix2 k c) := by
  rw [Ideal.matmul_constant_zero_apply, ← Equiv.sum_comp (contrEquiv1 DT 1024 rfl rfl).symm]
  refine Finset.sum_congr rfl fun k _ => ?_
  have hk := contrEquiv1_symm_val DT 1024 rfl rfl k
  have el : DT.lhsIdx (ix2 r c) ((contrEquiv1 DT 1024 rfl rfl).symm k) = ix2 k r :=
    funext fun a => Fin.ext (by
      match a with
      | ⟨0, _⟩ => exact (dt_lhs_row _ _).trans hk
      | ⟨1, _⟩ => exact dt_lhs_col _ _)
  have er : DT.rhsIdx (ix2 r c) ((contrEquiv1 DT 1024 rfl rfl).symm k) = ix2 k c :=
    funext fun a => Fin.ext (by
      match a with
      | ⟨0, _⟩ => exact (dt_rhs_row _ _).trans hk
      | ⟨1, _⟩ => exact dt_rhs_col _ _)
  rw [el, er]

/-- The column-side partial product at an entry. -/
theorem pay5_apply (v0 : Vec Ideal S1024x1024 .i32) (v14 : Vec Ideal S1024x128 .f32) (p : Fin 1024) (q : Fin 128) :
    k0_pay5 (F := Ideal) v0 v14 (ix3 (0 : Fin 1) p q) = ∑ k : Fin 1024, edge (v0 (ix2 k p)) * v14 (ix2 k q) := by
  unfold k0_pay5
  simp only [shapeCast_self]
  rw [shapeCast_ab_1ab_apply]
  refine (matmul_dt_zero_apply none (k0_pay2 v0) (truncf .bf16 v14 bitsLt_bf16_f32) p q).trans ?_
  refine Finset.sum_congr rfl fun k _ => ?_
  rw [pay2_apply, truncf_apply]

end Cert.KernelIdeal.Pay

end
-- ==== Proof.ColArray.lean ====
/-
  The column-side array the pipelined region leaves, at the ideal values, as one function of the region's inputs.

  The column-side output is an [8, 16384, 128] array of partial sums: entry (b, c, q) is the sum, over the 1024 rows
  of row block b, of the edge indicator at (row, c) times the padded row feature at (row, q). Grid point t (row block
  t / 16, column block t % 16) stores, at every point, the transposed edge-mask product of its 1024 × 1024 integer
  block with its 1024 rows of the padded row features, and that block is written back as block (t / 16, t % 16, 0) of
  the array: entry (0, p, q) of the block is entry (t / 16, 1024·(t % 16) + p, q) of the array. Every array entry
  (b, c, q) lies in the block of point 16·b + c / 1024, so the blocks cover the array and the array ends holding the
  partial sums everywhere.
-/
import proofs.«133575_j89395449299805_2_alg».proof.Proof.FrameDataI
import proofs.«133575_j89395449299805_2_alg».proof.Proof.PieceValsI
import proofs.«133575_j89395449299805_2_alg».proof.Proof.BlockReads
import proofs.«133575_j89395449299805_2_alg».proof.Proof.RowsAt
import proofs.«133575_j89395449299805_2_alg».proof.Proof.PayCol
import Idealize.ShloMosaic.Lib.Pipeline.Value

set_option maxRecDepth 16384

noncomputable section

namespace Cert.KernelIdeal.Val

open Idealize.ShloMosaic Idealize.ShloMosaic.TcCoe Idealize.ShloMosaic.ValueIdx Cert.KernelIdeal Cert.KernelIdeal.Gen Cert.KernelIdeal.Fr
open Idealize.ShloMosaic.Pipeline (Dat)
open Cert.RatingAgg.Final (row8 col16 partF)

variable (m : (ℓ : Loc nD τ sig) → Buf (Elt Ideal) ℓ)

/-- The array of partial column sums: entry (b, c, q) is row block b's partial sum at column c, padded feature q. -/
def G6 (adj : Cert.RatingAgg.SAdj.Idx → BitVec 32) (up : Cert.RatingAgg.Final.SUP.Idx → EReal) : S8x16384x128.Idx → EReal :=
  fun i => partF adj up (i 0) (i 1) (i 2)

theorem G6_ix3 (adj : Cert.RatingAgg.SAdj.Idx → BitVec 32) (up : Cert.RatingAgg.Final.SUP.Idx → EReal) (b : Fin 8) (c : Fin 16384)
    (q : Fin 128) : G6 adj up (ix3 b c q) = partF adj up b c q := rfl

/-! ## What a point stores -/

/-- The body's column-side product of point `t`'s blocks, at an entry, is row block `t / 16`'s partial sum at the
    entry's column of column block `t % 16`. -/
theorem pay_at (c : Dev nD) (t : Fin cfg0.N) (p : Fin 1024) (q : Fin 128) :
    k0_pay5 (F := Ideal) (iblk (F := Ideal) m c 0 t) (rowsU (F := Ideal) t (iblk (F := Ideal) m c 1 t)) (ix3 (0 : Fin 1) p q)
      = partF (V (F := Ideal) m c main_arg0) (V (F := Ideal) m c main_v2) (ibOf t) (col16 (jbOf t) p) q := by
  refine (Cert.KernelIdeal.Pay.pay5_apply (iblk (F := Ideal) m c 0 t) (rowsU (F := Ideal) t (iblk (F := Ideal) m c 1 t)) p q).trans ?_
  unfold partF
  refine Finset.sum_congr rfl fun k _ => ?_
  rw [iblk0_apply m c t k p]
  refine congrArg (fun z => _ * z) ?_
  exact (rowsU_apply (F := Ideal) t (iblk (F := Ideal) m c 1 t) k q).trans (iblk1_apply m c t (row8 (ibOf t) k) q)

/-- What the column-side window's buffer holds after the body at point `t`, at an entry: at every kind of point
    (column block 0, column block 15, the others) the body stores the same product. -/
theorem out6_apply (c : Dev nD) (t : Fin cfg0.N) (p : Fin 1024) (q : Fin 128) :
    (outsAt0 (F := Ideal) m c t.val t.isLt).2.1 (ix3 (0 : Fin 1) p q)
      = partF (V (F := Ideal) m c main_arg0) (V (F := Ideal) m c main_v2) (ibOf t) (col16 (jbOf t) p) q := by
  by_cases h0 : t.val % 16 = 0
  · have h1 : ¬t.val % 16 = 15 := by omega
    have e := congrArg (fun x => x.2.1) (outsAt0_A (F := Ideal) m c t h0 h1)
    dsimp only at e
    rw [e, col6A (F := Ideal) m c t h0 h1]
    exact pay_at m c t p q
  · by_cases h1 : t.val % 16 = 15
    · have e := congrArg (fun x => x.2.1) (outsAt0_C (F := Ideal) m c t h0 h1)
      dsimp only at e
      rw [e, col6C (F := Ideal) m c t h0 h1]
      exact pay_at m c t p q
    · have e := congrArg (fun x => x.2.1) (outsAt0_B (F := Ideal) m c t h0 h1)
      dsimp only at e
      rw [e, col6B (F := Ideal) m c t h0 h1]
      exact pay_at m c t p q

/-! ## From the blocks to the array -/

/-- The column-side window's block index at point `t` is (row block, column block, 0). -/
theorem idx_facts6 : ∀ t : Fin cfg0.N, win0_6.index t (0 : Fin 3) = t.val / 16 ∧ win0_6.index t (1 : Fin 3) = t.val % 16
    ∧ win0_6.index t (2 : Fin 3) = 0 :=
  (by decide +kernel : ∀ t : Fin grid0.N, win0_6.index t (0 : Fin 3) = t.val / 16 ∧ win0_6.index t (1 : Fin 3) = t.val % 16
    ∧ win0_6.index t (2 : Fin 3) = 0)

/-- Two contents of a [1, 1024, 128] block that agree at every (0, p, q) are equal. -/
theorem blk6_ext (X Y : S1x1024x128.Idx → EReal)
    (h : ∀ (p : Fin 1024) (q : Fin 128), X (ix3 (0 : Fin 1) p q) = Y (ix3 (0 : Fin 1) p q)) : X = Y := by
  funext j
  obtain ⟨z, p, q, rfl⟩ : ∃ (z : Fin 1) (p : Fin 1024) (q : Fin 128), j = ix3 z p q := ⟨j 0, j 1, j 2, eq_ix3 j⟩
  obtain rfl : z = 0 := Subsingleton.elim _ _
  exact h p q

/-- Entry (0, p, q) of point `t`'s block is entry (t / 16, 1024·(t % 16) + p, q) of the array. -/
theorem emb6 (t : Fin cfg0.N) (p : Fin 1024) (q : Fin 128) :
    ((cfg0.win 6).blk t).view.emb (ix3 (0 : Fin 1) p q) = ix3 (ibOf t) (col16 (jbOf t) p) q := by
  obtain ⟨e0, e1, e2⟩ := idx_facts6 t
  refine funext fun a => Fin.ext ?_
  match a with
  | ⟨0, _⟩ => show win0_6.index t (0 : Fin 3) * 1 + 1 * 0 = t.val / 16; omega
  | ⟨1, _⟩ => show win0_6.index t (1 : Fin 3) * 1024 + 1 * p.val = 1024 * (t.val % 16) + p.val; omega
  | ⟨2, _⟩ => show win0_6.index t (2 : Fin 3) * 128 + 1 * q.val = q.val; omega

/-- What point `t` writes back is block `t` of the array of partial sums. -/
theorem flushed6_eq (c : Dev nD) (t : Fin cfg0.N) :
    (dats (F := Ideal) m 0 c).flushed 6 t
      = ((cfg0.win 6).blk t).view.read (Elt Ideal) (G6 (V (F := Ideal) m c main_arg0) (V (F := Ideal) m c main_v2)) := by
  show (cfg0.win 6).cut (grid0.coords t) ((dats (F := Ideal) m 0 c).after 6 t) = _
  rw [after0_6]
  refine blk6_ext _ _ fun p q => ?_
  show (outsAt0 (F := Ideal) m c t.val t.isLt).2.1 (ix3 (0 : Fin 1) p q)
    = G6 (V (F := Ideal) m c main_arg0) (V (F := Ideal) m c main_v2) (((cfg0.win 6).blk t).view.emb (ix3 (0 : Fin 1) p q))
  rw [emb6 t p q, G6_ix3]
  exact out6_apply m c t p q

/-- An index of the array is in point `t`'s block iff each coordinate is in the block's range on its axis. -/
theorem mem_blk6 (t : Fin cfg0.N) (i : S8x16384x128.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v6_1).slice (win0_6.rect t)).set ↔ _
  rw [View.set_slice_whole, Rect.mem_set_unit]
  exact Iff.rfl

/-- Every entry (b, c, q) of the array is in the block of point 16·b + c / 1024, which is written back. -/
theorem cover6 (i : S8x16384x128.Idx) :
    ∃ t : Fin cfg0.N, (cfg0.win 6).flush t = true ∧ i ∈ ((cfg0.win 6).blk t).view.set := by
  have hN : cfg0.N = 128 := N_0
  have h0 : (i 0).val < 8 := (i 0).isLt
  have h1 : (i 1).val < 16384 := (i 1).isLt
  have h2 : (i 2).val < 128 := (i 2).isLt
  refine ⟨⟨16 * (i 0).val + (i 1).val / 1024, by omega⟩, flush0_6 _, ?_⟩
  rw [mem_blk6]
  obtain ⟨e0, e1, e2⟩ := idx_facts6 ⟨16 * (i 0).val + (i 1).val / 1024, by omega⟩
  intro a
  match a with
  | ⟨0, _⟩ =>
    show win0_6.index _ (0 : Fin 3) * 1 ≤ (i 0).val ∧ (i 0).val < win0_6.index _ (0 : Fin 3) * 1 + 1
    rw [e0]; simp only; omega
  | ⟨1, _⟩ =>
    show win0_6.index _ (1 : Fin 3) * 1024 ≤ (i 1).val ∧ (i 1).val < win0_6.index _ (1 : Fin 3) * 1024 + 1024
    rw [e1]; simp only; omega
  | ⟨2, _⟩ =>
    show win0_6.index _ (2 : Fin 3) * 128 ≤ (i 2).val ∧ (i 2).val < win0_6.index _ (2 : Fin 3) * 128 + 128
    rw [e2]; omega

/-- After the region the column-side array holds the partial sums of the region's integer matrix and padded row
    features, everywhere. -/
theorem arr6 (c : Dev nD) :
    (dats (F := Ideal) m 0 c).arrAt 6 cfg0.N = G6 (V (F := Ideal) m c main_arg0) (V (F := Ideal) m c main_v2) :=
  (dats (F := Ideal) m 0 c).arrAt_eq_of_cover 6 (G6 (V (F := Ideal) m c main_arg0) (V (F := Ideal) m c main_v2))
    (fun t _ => flushed6_eq m c t) cover6

end Cert.KernelIdeal.Val

end
-- ==== Proof.FrameEndI.lean ====
/-
  The frame of `KernelIdeal`: the run of @main leaves the five argument arrays unchanged. Three of them are arrays of
  input windows of the region (the adjacency matrix and the two weights: an input window's array is never written
  back); the two feature matrices are read only by the host lines before the region, and neither the region nor a
  host line after it writes them.
-/
import proofs.«133575_j89395449299805_2_alg».proof.Proof.FrameDataI

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A buffer that is no array of the pipeline and that no host line after the region writes ends as the region
    found it. -/
theorem tail_arg1 (c : Dev nD) :
    Pipeline.afterTail₀ cfgs (dats m) 0 (V0 m) [hostOps1, hostOps1_1] c main_arg1 = m ((c : Thread nD τ).loc main_arg1) := by
  unfold Pipeline.afterTail₀
  show StableHlo.after (List.flatten [hostOps1, hostOps1_1]) _ (Proc.devRef .tc main_arg1) = _
  simp only [hostOps1, hostOps1_1, List.flatten_cons, List.flatten_nil, List.append_nil, List.cons_append, List.nil_append]
  after_results
  rw [Pipeline.withArrays_of_ne (cfgs 0).spec c _ _ main_arg1 (fun w => by fin_cases w <;> decide)]
  exact V_main_arg1 m c

theorem tail_arg2 (c : Dev nD) :
    Pipeline.afterTail₀ cfgs (dats m) 0 (V0 m) [hostOps1, hostOps1_1] c main_arg2 = m ((c : Thread nD τ).loc main_arg2) := by
  unfold Pipeline.afterTail₀
  show StableHlo.after (List.flatten [hostOps1, hostOps1_1]) _ (Proc.devRef .tc main_arg2) = _
  simp only [hostOps1, hostOps1_1, List.flatten_cons, List.flatten_nil, List.append_nil, List.cons_append, List.nil_append]
  after_results
  rw [Pipeline.withArrays_of_ne (cfgs 0).spec c _ _ main_arg2 (fun w => by fin_cases w <;> decide)]
  exact V_main_arg2 m c

theorem rest_arg1 : main_arg1 ∈ Pipeline.restRefs sig (cfgs 0).spec := by decide
theorem rest_arg2 : main_arg2 ∈ Pipeline.restRefs sig (cfgs 0).spec := by decide

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans ((A_eq m c 0).trans (V_main_arg0 m c))),
     ((h c).2 main_arg1 rest_arg1).trans (tail_arg1 m c),
     ((h c).2 main_arg2 rest_arg2).trans (tail_arg2 m c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩) (run_main m ρ)

end Cert.KernelIdeal.Fr

end
-- ==== Proof.HostTail.lean ====
/-
  The column side's epilogue after the kernel, read at an index, at the ideal values.

  The kernel leaves, per row block b (8 of them), a partial sum x (b, c, e) for column c of the matrix and padded
  feature e (128 of them; feature 32 carries the partial degree). The epilogue sums the partial sums over the row
  blocks, takes features 0..31 as the aggregate and feature 32 as the degree, divides the aggregate by the degree
  clamped below at 1, multiplies the quotient into the 32 × 32 weight and clamps the product below at 0. Read at
  column c and output feature o this is

    max (∑ d, (∑ b, x (b, c, d)) / max (∑ b, x (b, c, 32)) 1 * wv (d, o)) 0.

  Each operation is first read at an index on its own, for any operand; the epilogue is their composition.
-/
import proofs.«133575_j89395449299805_2_alg».proof.KernelIdeal
import proofs.«133575_j89395449299805_2_alg».proof.Proof.Spec
import proofs.«133575_j89395449299805_2_alg».proof.Proof.LibDotRead
import proofs.«133575_j89395449299805_2_alg».proof.Proof.HostPad
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostOps

open Idealize.ShloMosaic Idealize.ShloMosaic.ValueIdx
open Cert.KernelIdeal Cert.KernelIdeal.Facts₀

variable [Cert.KernelIdeal.Facts]

/-- The sum over the 8 row blocks, read at column c and padded feature e. -/
theorem reduce_apply (x : FVec Ideal S8x16384x128 .f32) (c : Fin 16384) (e : Fin 128) :
    Host.reduceAdd (F := Ideal) x (constant (F := Ideal) S_ .f32 0x00000000#32) reducesTo_S8x16384x128_S16384x128_d0 h_S_ (ix2 c e)
      = ∑ b : Fin 8, x (ix3 b c e) := by
  unfold Host.reduceAdd
  rw [Ideal.hostReduceAdd_def]
  have h : S8x16384x128.Reduces [0] S16384x128 := by decide
  refine (Ideal.hostReduceAdd_single reducesTo_S8x16384x128_S16384x128_d0 h x _ (ix2 c e)).trans ?_
  show Ideal.ofBits .f32 0x00000000#32 + _ = _
  rw [Ideal.ofBits_zero_f32, zero_add]
  refine Finset.sum_congr rfl fun b _ => congrArg x (funext fun a => Fin.ext ?_)
  match a with
  | ⟨0, _⟩ => rfl
  | ⟨1, _⟩ => rfl
  | ⟨2, _⟩ => rfl

/-- Features 0..31 of the summed array. -/
theorem slice_lo_apply (z : FVec Ideal S16384x128 .f32) (c : Fin 16384) (d : Fin 32) :
    extractStridedSlice S16384x32 ![0, 0] z slices_S16384x128_S16384x32_0_0 (ix2 c d)
      = z (ix2 c (Fin.castLE (by decide : 32 ≤ 128) d)) := by
  refine extractStridedSlice_apply (s := S16384x128) (t := S16384x32) ![0, 0] z _ (ix2 c d) _ fun a => ?_
  match a with
  | ⟨0, _⟩ => show c.val = 0 + c.val; omega
  | ⟨1, _⟩ => show d.val = 0 + d.val; omega

/-- Feature 32 of the summed array, as a one-column array. -/
theorem slice_deg_apply (z : FVec Ideal S16384x128 .f32) (c : Fin 16384) :
    extractStridedSlice S16384x1 ![0, 32] z slices_S16384x128_S16384x1_0_32 (ix2 c (0 : Fin 1))
      = z (ix2 c (32 : Fin 128)) := by
  refine extractStridedSlice_apply (s := S16384x128) (t := S16384x1) ![0, 32] z _ (ix2 c (0 : Fin 1)) _ fun a => ?_
  match a with
  | ⟨0, _⟩ => show c.val = 0 + c.val; omega
  | ⟨1, _⟩ => rfl

/-- The clamp of a one-column array below at 1. -/
theorem max_one_apply (y : FVec Ideal S16384x1 .f32) (i : S16384x1.Idx) :
    maximumf y (broadcastInDim S16384x1 ![] bcast_S_S16384x1 (constant (F := Ideal) S_ .f32 0x3F800000#32)) i = max (y i) 1 := by
  show max (y i) _ = _
  refine congrArg (max (y i)) ?_
  refine (broadcastInDim_apply (s := S_) (t := S16384x1) ![] bcast_S_S16384x1 _ _ (fun a => a.elim0) (fun a => a.elim0)).trans ?_
  exact ofBits_one_f32

/-- The clamp of the result below at 0. -/
theorem max_zero_apply (y : FVec Ideal S16384x32 .f32) (i : S16384x32.Idx) :
    maximumf y (broadcastInDim S16384x32 ![] bcast_S_S16384x32 (constant (F := Ideal) S_ .f32 0x00000000#32)) i = max (y i) 0 := by
  show max (y i) _ = _
  refine congrArg (max (y i)) ?_
  refine (broadcastInDim_apply (s := S_) (t := S16384x32) ![] bcast_S_S16384x32 _ _ (fun a => a.elim0) (fun a => a.elim0)).trans ?_
  exact Ideal.ofBits_zero_f32

/-- The quotient by a one-column array spread over the 32 features. -/
theorem div_col_apply (a : FVec Ideal S16384x32 .f32) (m : FVec Ideal S16384x1 .f32) (c : Fin 16384) (d : Fin 32) :
    Host.divf (F := Ideal) a (broadcastInDim S16384x32 ![0, 1] bcast_S16384x1_S16384x32_0_1 m) (ix2 c d)
      = Ideal.div (a (ix2 c d)) (m (ix2 c (0 : Fin 1))) := by
  show Ideal.div (a (ix2 c d)) _ = _
  refine congrArg (Ideal.div (a (ix2 c d))) ?_
  refine broadcastInDim_apply (s := S16384x1) (t := S16384x32) ![0, 1] bcast_S16384x1_S16384x32_0_1 m (ix2 c d) (ix2 c (0 : Fin 1)) fun b => ?_
  match b with
  | ⟨0, _⟩ => rfl
  | ⟨1, _⟩ => rfl

/-- The product with the weight: entry (c, o) is the sum over the 32 features. -/
theorem dot_apply (l : FVec Ideal S16384x32 .f32) (wv : FVec Ideal S32x32 .f32) (c : Fin 16384) (o : Fin 32) :
    Host.dotGeneral (F := Ideal) dot_S16384x32_S32x32_S16384x32_1_0_0_1_n_n none l wv (ix2 c o)
      = ∑ d : Fin 32, l (ix2 c d) * wv (ix2 d o) := by
  have e : dot_S16384x32_S32x32_S16384x32_1_0_0_1_n_n = DotDims.plain 16384 32 32 := rfl
  rw [e]
  exact (Ideal.dotGeneral_apply _ _ _ _ _ _).trans
    ((Ideal.matmul_constant_zero_apply (DotDims.plain 16384 32 32) none l wv (ix2 c o)).symm.trans
      (DotRead.matmul_plain_zero_apply 16384 32 32 none l wv c o))

/-- The epilogue as one function of the kernel's partial sums and the weight. -/
def tailV (x : FVec Ideal S8x16384x128 .f32) (wv : FVec Ideal S32x32 .f32) : FVec Ideal S16384x32 .f32 :=
  let v7 := Host.reduceAdd (F := Ideal) x (constant (F := Ideal) S_ .f32 0x00000000#32) reducesTo_S8x16384x128_S16384x128_d0 h_S_
  let v8 := extractStridedSlice S16384x32 ![0, 0] v7 slices_S16384x128_S16384x32_0_0
  let v9 := extractStridedSlice S16384x1 ![0, 32] v7 slices_S16384x128_S16384x1_0_32
  let v11 := maximumf v9 (broadcastInDim S16384x1 ![] bcast_S_S16384x1 (constant (F := Ideal) S_ .f32 0x3F800000#32))
  let v13 := Host.divf (F := Ideal) v8 (broadcastInDim S16384x32 ![0, 1] bcast_S16384x1_S16384x32_0_1 v11)
  let v14 := Host.dotGeneral (F := Ideal) dot_S16384x32_S32x32_S16384x32_1_0_0_1_n_n none v13 wv
  maximumf v14 (broadcastInDim S16384x32 ![] bcast_S_S16384x32 (constant (F := Ideal) S_ .f32 0x00000000#32))

/-- The epilogue read at column c, output feature o. -/
theorem tailV_apply (x : FVec Ideal S8x16384x128 .f32) (wv : FVec Ideal S32x32 .f32) (c : Fin 16384) (o : Fin 32) :
    tailV x wv (ix2 c o) = max (∑ d : Fin 32, Ideal.div (∑ b : Fin 8, x (ix3 b c (Fin.castLE (by decide : 32 ≤ 128) d))) (max (∑ b : Fin 8, x (ix3 b c (32 : Fin 128))) 1) * wv (ix2 d o)) 0 := by
  unfold tailV
  refine (max_zero_apply _ _).trans (congrArg (max · 0) ?_)
  refine (dot_apply _ _ _ _).trans (Finset.sum_congr rfl fun d _ => congrArg (· * wv (ix2 d o)) ?_)
  refine (div_col_apply _ _ _ _).trans ?_
  rw [slice_lo_apply, max_one_apply, slice_deg_apply, reduce_apply, reduce_apply]

end Cert.KernelIdeal.HostOps

end
-- ==== Proof.TailVal.lean ====
/-
  The column side's result buffer after the run of @main, at the ideal values.

  The host lines after the region read two buffers the region leaves: the array of the region's last window (the
  per-row-block partial sums) and the second weight, an input array the region never writes. What they leave in the
  final buffer is the epilogue function of those two.
-/
import proofs.«133575_j89395449299805_2_alg».proof.Proof.FrameEndI
import proofs.«133575_j89395449299805_2_alg».proof.Proof.HostTail

set_option maxRecDepth 16384

noncomputable section

namespace Cert.KernelIdeal.Val

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen Cert.KernelIdeal.Fr Cert.KernelIdeal.HostOps

variable (m : (ℓ : Loc nD τ sig) → Buf (Elt Ideal) ℓ)

/-- The final buffer of the column side after the host lines that follow the region. -/
theorem tail_v15 (c : Dev nD) :
    Pipeline.afterTail₀ cfgs (dats (F := Ideal) m) 0 (V0 (F := Ideal) m) [hostOps1, hostOps1_1] c main_v15
      = tailV ((dats (F := Ideal) m 0 c).arrAt 6 cfg0.N) (m ((c : Thread nD τ).loc main_arg4)) := by
  unfold Pipeline.afterTail₀
  show StableHlo.after (List.flatten [hostOps1, hostOps1_1]) _ (Proc.devRef .tc main_v15) = _
  simp only [hostOps1, hostOps1_1, List.flatten_cons, List.flatten_nil, List.append_nil, List.cons_append, List.nil_append]
  after_results
  have e6 : Pipeline.withArrays (cfgs 0).spec c (V0 (F := Ideal) m c) (fun w => (dats (F := Ideal) m 0 c).arrAt w (cfgs 0).N) (Proc.devRef .tc main_v6_1)
      = (dats (F := Ideal) m 0 c).arrAt 6 cfg0.N :=
    Pipeline.withArrays_arr (cfgs 0).spec launch0.win.arr_inj c _ _ 6
  have e4 : Pipeline.withArrays (cfgs 0).spec c (V0 (F := Ideal) m c) (fun w => (dats (F := Ideal) m 0 c).arrAt w (cfgs 0).N) (Proc.devRef .tc main_arg4)
      = m ((c : Thread nD τ).loc main_arg4) :=
    (Pipeline.withArrays_arr (cfgs 0).spec launch0.win.arr_inj c _ _ 4).trans
      (((dats (F := Ideal) m 0 c).arrAt_in 4 rfl _).trans ((A_eq m c 4).trans (V_main_arg4 m c)))
  rw [e6, e4]
  generalize (dats (F := Ideal) m 0 c).arrAt 6 cfg0.N = X
  generalize m ((c : Thread nD τ).loc main_arg4) = W
  rfl

/-- The final buffer of the column side is no array of the pipeline. -/
theorem rest_v15 : main_v15 ∈ Pipeline.restRefs sig (cfgs 0).spec := by decide

/-- Every weakly fair execution of @main terminates with the column side's final buffer at the epilogue of the
    last window's array and the second weight, and the row side's result buffer at the array of its window. -/
theorem run_v15 (ρ : Dev nD → PrngReg) : θ_run (defs (F := Ideal)) (onTc (τ := τ) (main (F := Ideal))) (s₀ m ρ) (fun r => ∀ c : Dev nD,
      r.2.mem ((c.tc : Thread nD τ).loc main_v15) = tailV ((dats (F := Ideal) m 0 c).arrAt 6 cfg0.N) (m ((c.tc : Thread nD τ).loc main_arg4))
      ∧ r.2.mem ((c.tc : Thread nD τ).loc main_v6_0) = (dats (F := Ideal) m 0 c).arrAt 5 cfg0.N) :=
  (θ_run defs _ _).mono (fun _ h c => ⟨((h c).2 main_v15 rest_v15).trans (tail_v15 m c), (h c).1 5⟩) (run_main m ρ)

end Cert.KernelIdeal.Val

end
-- ==== Proof.KernelValue.lean ====
/-
  The run of the idealized kernel program with both results named: the row-side result is the array of the
  row-side output window; the column-side result is what the host lines after the region make of the column-side
  window's array — the sum of the eight per-row-block partial sums, divided by the clamped degree, times the
  weight, clamped at zero — which is the specification's column-side result because the eight partial sums add up
  to the whole column aggregate and the padded row features carry the original features in columns 0 … 31 and a
  one in column 32.
-/
import proofs.«133575_j89395449299805_2_alg».proof.Proof.RowArray
import proofs.«133575_j89395449299805_2_alg».proof.Proof.ColArray
import proofs.«133575_j89395449299805_2_alg».proof.Proof.TailVal

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.KernelIdeal.HostOps
open Cert.RatingAgg Cert.RatingAgg.Final

variable (m : (ℓ : Loc nD τ sig) → Buf (Elt Ideal) ℓ)

/-- The column-side window's array in terms of the argument arrays. -/
theorem arr6_args (c : Dev nD) :
    (dats (F := Ideal) m 0 c).arrAt 6 cfg0.N = G6 (m ((c : Thread nD τ).loc main_arg0)) (padU (m ((c : Thread nD τ).loc main_arg1))) :=
  (arr6 m c).trans (congrArg₂ G6 (V_main_arg0 m c) (V_v2 m c))

/-- The host lines after the region turn it into the specification's column-side result. -/
theorem tail_is_GV (c : Dev nD) :
    tailV ((dats (F := Ideal) m 0 c).arrAt 6 cfg0.N) (m ((c : Thread nD τ).loc main_arg4))
      = GV (m ((c : Thread nD τ).loc main_arg0)) (m ((c : Thread nD τ).loc main_arg1)) (m ((c : Thread nD τ).loc main_arg4)) := by
  rw [arr6_args m c]
  funext i
  obtain ⟨cc, o, rfl⟩ : ∃ (cc : Fin 16384) (o : Fin 32), i = ix2 cc o := ⟨i 0, i 1, eq_ix2 i⟩
  rw [tailV_apply, GV_ix2]
  simp only [G6_ix3]
  exact col_final (m ((c : Thread nD τ).loc main_arg0)) (m ((c : Thread nD τ).loc main_arg1)) (padU (m ((c : Thread nD τ).loc main_arg1))) (m ((c : Thread nD τ).loc main_arg4))
    (fun r d => padU_lo _ r d) (fun r => padU_one _ r) cc o

/-- Every weakly fair execution of the idealized kernel program terminates with its two results at the
    specification's two result arrays of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = GU (m ((c.tc : Thread nD τ).loc main_arg0)) (m ((c.tc : Thread nD τ).loc main_arg2)) (m ((c.tc : Thread nD τ).loc main_arg3))
      ∧ r.2.mem ((c.tc : Thread nD τ).loc main_v15) = GV (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (arr5 m c),
     ((h c).2 main_v15 rest_v15).trans ((tail_v15 m c).trans (tail_is_GV m c)),
     ((h c).1 0).trans (((dats m 0 c).arrAt_in 0 rfl _).trans ((A_eq m c 0).trans (V_main_arg0 m c))),
     ((h c).2 main_arg1 rest_arg1).trans (tail_arg1 m c),
     ((h c).2 main_arg2 rest_arg2).trans (tail_arg2 m c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩) (run_main m ρ)

end Cert.KernelIdeal.Val

end
-- ==== Proof.LibMeanLaws.lean ====
/-
  Laws of the extended reals that join a mean aggregation written as a product with a reciprocal count to one written
  as a quotient, and a linear map with pre-summed weights to the sum of the linear maps.

  * Off zero, `x / y` is `x · (1 / y)` on EVERY extended real `x` (both are `x · y⁻¹`); a count clamped from below by
    one, `max c 1`, is never zero, so `s / max c 1 = s · (1 / max c 1)` needs no finiteness of `s` or `c`.
  * A dot product distributes over a sum of weights when all three families are real:
    `∑ x·(a + b) = ∑ x·a + ∑ x·b`. (On the extended reals this fails at opposite infinities, so the hypothesis is used.)
  * Being a real number is closed under sums, products, finite sums, maxima, and quotients by a real that is at least one.
-/
import Idealize.ShloMosaic.PureOps.Ideal
import Idealize.ShloMosaic.PureOps.Ideal.Laws

noncomputable section

namespace Cert.Lib.MeanLaws

open Idealize.ShloMosaic

/-- Off zero a quotient is the product with the reciprocal, for every extended real numerator. -/
theorem div_eq_mul_one_div {y : EReal} (hy : y ≠ 0) (x : EReal) : Ideal.div x y = x * Ideal.div 1 y := by
  rw [Ideal.div, if_neg hy, Ideal.div, if_neg hy, one_mul]

/-- A quantity clamped from below by one is not zero. -/
theorem max_one_ne_zero (c : EReal) : max c 1 ≠ 0 :=
  ne_of_gt (lt_of_lt_of_le zero_lt_one (le_max_right c 1))

/-- The mean by a clamped count: dividing by `max c 1` is multiplying by its reciprocal, whatever `x` and `c` are. -/
theorem div_max_one (x c : EReal) : Ideal.div x (max c 1) = x * Ideal.div 1 (max c 1) :=
  div_eq_mul_one_div (max_one_ne_zero c) x

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ k ∈ s, IsReal (f k)) : IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

/-- The reciprocal of a real clamped from below by one is a real. -/
theorem isReal_one_div_max_one {c : EReal} (hc : IsReal c) : IsReal (Ideal.div 1 (max c 1)) := by
  obtain ⟨r, hr⟩ := hc.max IsReal.one
  have hne : (r : EReal) ≠ 0 := hr ▸ max_one_ne_zero c
  rw [hr, Ideal.div_coe (by exact_mod_cast hne), one_mul]
  exact ⟨_, rfl⟩

/-- A dot product distributes over a sum of two weight families when everything is real. -/
theorem sum_mul_add {ι : Type*} (s : Finset ι) (x a b : ι → EReal)
    (hx : ∀ k ∈ s, IsReal (x k)) (ha : ∀ k ∈ s, IsReal (a k)) (hb : ∀ k ∈ s, IsReal (b k)) :
    ∑ k ∈ s, x k * (a k + b k) = ∑ k ∈ s, x k * a k + ∑ k ∈ s, x k * b k := by
  rw [← Finset.sum_add_distrib]
  refine Finset.sum_congr rfl fun k hk => ?_
  obtain ⟨u, hu⟩ := hx k hk; obtain ⟨v, hv⟩ := ha k hk; obtain ⟨w, hw⟩ := hb k hk
  rw [hu, hv, hw, ← EReal.coe_add, ← EReal.coe_mul, ← EReal.coe_mul, ← EReal.coe_mul, ← EReal.coe_add, mul_add]

end Cert.Lib.MeanLaws

end
-- ==== Proof.RefLaws.lean ====
/-
  Scalar and counting laws that join a mean written as (1 / count) · sum, the count taken from a 32-bit integer sum of
  0/1 words, to the mean written as sum / max(count, 1) with the count a sum of real indicators.

  * A 32-bit sum of words is the word of the natural sum of their values; when every word is 0 or 1 and there are
    fewer than 2³¹ of them, the signed value of the sum is that natural number.
  * With every entry at most 5, the test `a > 0` is the edge test `1 ≤ a ∧ a ≤ 5`.
  * For a count `c` and an aggregate `S` that vanishes when `c = 0`: `(1 / c) · S = S / max c 1` on the extended
    reals. No finiteness of `S` is used: at `c = 0` both sides are `0` (`x · 0 = 0` for every `x`), and at `c ≥ 1`
    both are `S · c⁻¹` by commutativity.
-/
import proofs.«133575_j89395449299805_2_alg».proof.Proof.Spec
import proofs.«133575_j89395449299805_2_alg».proof.Proof.LibMeanLaws
import Idealize.ShloMosaic.Lib.Affine

noncomputable section

namespace Cert.RatingAgg.RefLaws

open Idealize.ShloMosaic

/-- The pattern of `1.0` denotes the real `1`. -/
theorem ofBits_one : Ideal.ofBits .f32 0x3F800000#32 = 1 := by
  simp [Ideal.ofBits, Ideal.ieee, -EReal.coe_mul]; norm_num

/-- A 32-bit sum of words, from zero, is the word of the natural sum of their values. -/
theorem fold_addi_eq_ofNat {ι : Type*} [DecidableEq ι] (s : Finset ι) (f : ι → BitVec 32) :
    s.fold IntOp.addi 0#32 f = BitVec.ofNat 32 (∑ k ∈ s, (f k).toNat) := by
  induction s using Finset.induction_on with
  | empty => simp
  | insert a s ha ih =>
    rw [Finset.fold_insert ha, Finset.sum_insert ha, ih, BitVec.ofNat_add, BitVec.ofNat_toNat, BitVec.setWidth_eq]
    rfl

/-- Fewer than 2³¹ words, each 0 or 1: the signed value of their 32-bit sum is the natural sum. -/
theorem toInt_fold_addi {ι : Type*} [DecidableEq ι] (s : Finset ι) (f : ι → BitVec 32)
    (hf : ∀ k ∈ s, (f k).toNat ≤ 1) (hs : s.card < 2 ^ 31) :
    (s.fold IntOp.addi 0#32 f).toInt = ((∑ k ∈ s, (f k).toNat : ℕ) : ℤ) := by
  have hle : ∑ k ∈ s, (f k).toNat ≤ s.card := by
    calc ∑ k ∈ s, (f k).toNat ≤ ∑ _k ∈ s, 1 := Finset.sum_le_sum hf
      _ = s.card := by simp
  rw [fold_addi_eq_ofNat]
  have hlt : ∑ k ∈ s, (f k).toNat < 2 ^ 31 := lt_of_le_of_lt hle hs
  rw [BitVec.toInt_ofNat']
  generalize ∑ k ∈ s, (f k).toNat = n at hlt
  have h31 : (2 : ℕ) ^ 31 = 2147483648 := by norm_num
  have h32 : (2 : ℕ) ^ 32 = 4294967296 := by norm_num
  rw [h31] at hlt
  rw [h32, Int.bmod_eq_of_le (by omega) (by omega)]

/-- Under the bound `a ≤ 5`, positivity is the edge test. -/
theorem sgt_zero_eq_edgeBit (a : BitVec 32) (h : a.sle 5#32 = true) : IntOp.cmpi .sgt a 0#32 = edgeBit a := by
  have h5 : IntOp.cmpi .sle a 5#32 = 1#1 := IntOp.cmpi_sle.2 (BitVec.sle_iff_toInt_le.1 h)
  have key : IntOp.cmpi .sgt a 0#32 = 1#1 ↔ edgeBit a = 1#1 := by
    unfold edgeBit
    rw [IntOp.andi_eq_one, IntOp.cmpi_sgt, IntOp.cmpi_sge]
    constructor
    · intro h0
      refine ⟨?_, h5⟩
      have : (0#32 : BitVec 32).toInt = 0 := by decide
      have h1 : (1#32 : BitVec 32).toInt = 1 := by decide
      omega
    · rintro ⟨h1', -⟩
      have : (0#32 : BitVec 32).toInt = 0 := by decide
      have h1 : (1#32 : BitVec 32).toInt = 1 := by decide
      omega
  rcases BitVec.eq_zero_or_eq_one (IntOp.cmpi .sgt a 0#32) with hx | hx <;>
    rcases BitVec.eq_zero_or_eq_one (edgeBit a) with hy | hy
  · rw [hx, hy]
  · exact absurd (key.2 hy) (by rw [hx]; decide)
  · exact absurd (key.1 hx) (by rw [hy]; decide)
  · rw [hx, hy]

/-- The value of a one-bit word is at most 1. -/
theorem toNat_bit_le_one (b : BitVec 1) : b.toNat ≤ 1 := by
  have := b.isLt; omega

/-- Widening a one-bit word to 32 bits keeps its value. -/
theorem toNat_setWidth_bit (b : BitVec 1) : (b.setWidth 32).toNat = b.toNat := by
  rw [BitVec.toNat_setWidth]
  exact Nat.mod_eq_of_lt (lt_of_le_of_lt (toNat_bit_le_one b) (by norm_num))

/-- A sum of naturals read as extended reals is the natural sum read as an extended real. -/
theorem coe_sum_nat {ι : Type*} [DecidableEq ι] (s : Finset ι) (f : ι → ℕ) :
    ∑ k ∈ s, (((f k : ℕ) : ℝ) : EReal) = (((∑ k ∈ s, f k : ℕ) : ℝ) : EReal) := by
  induction s using Finset.induction_on with
  | empty => simp
  | insert a s ha ih =>
    rw [Finset.sum_insert ha, Finset.sum_insert ha, ih, Nat.cast_add, EReal.coe_add]

/-- The degree as a count: the sum of the indicators is the number of edges, as a real. -/
theorem sum_edge_eq_count {ι : Type*} [DecidableEq ι] (s : Finset ι) (a : ι → BitVec 32) :
    ∑ k ∈ s, edge (a k) = (((∑ k ∈ s, (edgeBit (a k)).toNat : ℕ) : ℝ) : EReal) :=
  coe_sum_nat s fun k => (edgeBit (a k)).toNat

/-- A row with no edge aggregates to zero, whatever the features are: every term is `0 · x = 0`. -/
theorem agg_eq_zero_of_count {ι : Type*} [DecidableEq ι] (s : Finset ι) (a : ι → BitVec 32) (x : ι → EReal)
    (h : ∑ k ∈ s, (edgeBit (a k)).toNat = 0) : ∑ k ∈ s, edge (a k) * x k = 0 := by
  refine Finset.sum_eq_zero fun k hk => ?_
  have h0 : (edgeBit (a k)).toNat = 0 := (Finset.sum_eq_zero_iff.1 h) k hk
  unfold edge
  rw [h0]
  simp

/-- The scalar law: the reciprocal of the count times the aggregate is the aggregate over the clamped count. -/
theorem inv_mul_eq_div (S : EReal) (c : ℕ) (hS : c = 0 → S = 0) :
    Ideal.div 1 (((c : ℝ)) : EReal) * S = Ideal.div S (max (((c : ℝ)) : EReal) 1) := by
  rcases Nat.eq_zero_or_pos c with hc | hc
  · rw [hS hc, mul_zero]
    subst hc
    have : max (((0 : ℕ) : ℝ) : EReal) 1 = 1 := by
      rw [Nat.cast_zero, EReal.coe_zero]; exact max_eq_right zero_le_one
    rw [this, Ideal.div, if_neg one_ne_zero, zero_mul]
  · have h1 : (1 : EReal) ≤ ((c : ℝ) : EReal) := by
      have : (1 : ℝ) ≤ (c : ℝ) := by exact_mod_cast hc
      exact_mod_cast this
    have hne : ((c : ℝ) : EReal) ≠ 0 := ne_of_gt (lt_of_lt_of_le zero_lt_one h1)
    rw [max_eq_left h1, Ideal.div, if_neg hne, Ideal.div, if_neg hne, one_mul, mul_comm]

end Cert.RatingAgg.RefLaws

end
-- ==== Proof.RefSide.lean ====
/-
  The reference computation, read index by index, equals the specification arrays.

  Row side: the reference multiplies the reciprocal of the row's degree — the signed value of a 32-bit sum of the
  0/1 words of `a > 0` — into the aggregate `∑ edge · v`, then into the weight, then clamps at 0. Under the bound
  `a ≤ 5` the test `a > 0` is the edge test, the 32-bit sum of at most 16384 such words is their count, and
  `(1 / count) · aggregate = aggregate / max count 1` since a row of count 0 aggregates to 0. The column side is the
  same through the transpose.
-/
import proofs.«133575_j89395449299805_2_alg».proof.Defs
import proofs.«133575_j89395449299805_2_alg».proof.Proof.Gen.ReferenceIdeal.Read
import proofs.«133575_j89395449299805_2_alg».proof.Proof.Spec
import proofs.«133575_j89395449299805_2_alg».proof.Proof.RefLaws

noncomputable section

namespace Cert.ReferenceIdeal.RefSide

open Cert.ReferenceIdeal Cert.ReferenceIdeal.Gen Cert.ReferenceIdeal.Read Idealize.ShloMosaic Idealize.ShloMosaic.ValueIdx
open Cert.RatingAgg Cert.RatingAgg.RefLaws

/-- The reference's edge indicator is the specification's, entry by entry. -/
theorem edge_read (adj : SAdj.Idx → BitVec 32) (i : SAdj.Idx) : val_main_v5 (F := Ideal) adj i = edge (adj i) := rfl

/-- The reference's positivity word at an entry. -/
theorem pos_read (adj : SAdj.Idx → BitVec 32) (i : SAdj.Idx) :
    val_main_v8 (F := Ideal) adj i = (IntOp.cmpi .sgt (adj i) 0#32).setWidth 32 := rfl

/-- The integer sum along a row, as a fold over the row's columns. -/
theorem reduce_row (x : S8192x16384.Idx → BitVec 32) (init : S_.Idx → BitVec 32) (r : Fin 8192) :
    Host.reduce IntOp.addi x init reducesTo_S8192x16384_S8192_d1 h_S_ (ix1 r)
      = (Finset.univ : Finset (Fin 16384)).fold IntOp.addi (init (Shape.Idx.first h_S_)) (fun j => x (ix2 r j)) := by
  have hred : S8192x16384.Reduces [1] S8192 := by decide
  rw [Host.reduce_eq_fold_single IntOp.addi x init reducesTo_S8192x16384_S8192_d1 hred h_S_ (ix1 r)]
  refine Finset.fold_congr fun k _ => ?_
  show x (hred.lift (ix1 r) k) = x (ix2 r k)
  refine congrArg x (funext fun a => Fin.ext ?_)
  match a with
  | ⟨0, _⟩ => rfl
  | ⟨1, _⟩ => rfl

/-- The row's degree as the reference computes it is the count of its edges. -/
theorem deg_read (adj : SAdj.Idx → BitVec 32) (hadj : ∀ i : SAdj.Idx, (adj i).sle 5#32 = true) (r : Fin 8192) :
    val_main_v10 (F := Ideal) adj (ix1 r)
      = (((∑ j : Fin 16384, (edgeBit (adj (ix2 r j))).toNat : ℕ) : ℝ) : EReal) := by
  rw [val_main_v10_apply]
  show (((val_main_v9 (F := Ideal) adj (ix1 r)).toInt : ℝ) : EReal) = _
  have h9 : val_main_v9 (F := Ideal) adj (ix1 r)
      = (Finset.univ : Finset (Fin 16384)).fold IntOp.addi 0#32 (fun j => (edgeBit (adj (ix2 r j))).setWidth 32) := by
    refine (reduce_row _ _ r).trans ?_
    refine Finset.fold_congr fun j _ => ?_
    rw [pos_read, sgt_zero_eq_edgeBit _ (hadj _)]
  rw [h9, toInt_fold_addi _ _ (fun k _ => by rw [toNat_setWidth_bit]; exact toNat_bit_le_one _) (by simp)]
  simp only [toNat_setWidth_bit, Int.cast_natCast]

/-- The specification's row degree is the same count. -/
theorem rowDeg_eq (adj : SAdj.Idx → BitVec 32) (r : Fin 8192) :
    rowDeg adj r = (((∑ j : Fin 16384, (edgeBit (adj (ix2 r j))).toNat : ℕ) : ℝ) : EReal) :=
  sum_edge_eq_count Finset.univ fun j => adj (ix2 r j)

/-- A row with no edge aggregates to zero. -/
theorem rowAgg_zero (adj : SAdj.Idx → BitVec 32) (v : SV.Idx → EReal) (r : Fin 8192) (d : Fin 32)
    (h : ∑ j : Fin 16384, (edgeBit (adj (ix2 r j))).toNat = 0) : rowAgg adj v r d = 0 :=
  agg_eq_zero_of_count Finset.univ (fun j => adj (ix2 r j)) (fun j => v (ix2 j d)) h

/-- The reference's first matrix product at (r, d) is the row aggregate. -/
theorem agg_read (adj : SAdj.Idx → BitVec 32) (v : SV.Idx → EReal) (r : Fin 8192) (d : Fin 32) :
    val_main_v19 (F := Ideal) adj v (ix2 r d) = rowAgg adj v r d := by
  rw [val_main_v19_apply]
  unfold rowAgg
  refine Finset.sum_congr rfl fun k _ => ?_
  have el : lidx_main_v19 (ix2 r d) k = ix2 r k :=
    funext fun a => Fin.ext (by match a with | ⟨0, _⟩ => rfl | ⟨1, _⟩ => rfl)
  have er : ridx_main_v19 (ix2 r d) k = ix2 k d :=
    funext fun a => Fin.ext (by match a with | ⟨0, _⟩ => rfl | ⟨1, _⟩ => rfl)
  rw [el, er, edge_read]

/-- The reciprocal degree, broadcast along the features, at (r, d). -/
theorem inv_read (adj : SAdj.Idx → BitVec 32) (r : Fin 8192) (d : Fin 32) :
    val_main_v20 (F := Ideal) adj (ix2 r d) = Ideal.div 1 (val_main_v10 (F := Ideal) adj (ix1 r)) := by
  rw [val_main_v20_apply, val_main_v18_apply, val_main_v12_apply, val_main_v11_apply, val_main_cst_apply]
  have e : idx_main_v18 (idx_main_v20 (ix2 r d)) = ix1 r :=
    funext fun a => Fin.ext (by match a with | ⟨0, _⟩ => rfl)
  rw [e]
  simp only [Ideal.hostDivf_def, Ideal.ofBits_def, ofBits_one]

/-- The reference's scaled aggregate at (r, d) is the specification's mean. -/
theorem row_mean (adj : SAdj.Idx → BitVec 32) (v : SV.Idx → EReal)
    (hadj : ∀ i : SAdj.Idx, (adj i).sle 5#32 = true) (r : Fin 8192) (d : Fin 32) :
    val_main_v21 (F := Ideal) adj v (ix2 r d) = Ideal.div (rowAgg adj v r d) (max (rowDeg adj r) 1) := by
  rw [val_main_v21_apply, inv_read, agg_read, deg_read adj hadj r, rowDeg_eq]
  exact inv_mul_eq_div _ _ (rowAgg_zero adj v r d)

/-- The row-side result of the reference is the specification's. -/
theorem out_u (adj : SAdj.Idx → BitVec 32) (v : SV.Idx → EReal) (wu : SW.Idx → EReal)
    (hadj : ∀ i : SAdj.Idx, (adj i).sle 5#32 = true) :
    val_main_v28 (F := Ideal) adj v wu = GU adj v wu := by
  funext i
  obtain ⟨r, o, rfl⟩ : ∃ (r : Fin 8192) (o : Fin 32), i = ix2 r o := ⟨i 0, i 1, eq_ix2 i⟩
  rw [GU_ix2, val_main_v28_apply, val_main_v27_apply, val_main_call0_v0_apply, val_main_call0_cst_apply]
  unfold rowOut
  simp only [Ideal.maximumf_def, Ideal.ofBits_def, Ideal.ofBits_zero_f32]
  refine congrArg (fun x : EReal => max x 0) ?_
  refine Finset.sum_congr rfl fun d _ => ?_
  have el : lidx_main_v27 (ix2 r o) d = ix2 r d :=
    funext fun a => Fin.ext (by match a with | ⟨0, _⟩ => rfl | ⟨1, _⟩ => rfl)
  have er : ridx_main_v27 (ix2 r o) d = ix2 d o :=
    funext fun a => Fin.ext (by match a with | ⟨0, _⟩ => rfl | ⟨1, _⟩ => rfl)
  rw [el, er, row_mean adj v hadj r d]

/-! ## The column side -/

/-- The integer sum down a column, as a fold over the column's rows. -/
theorem reduce_col (x : S8192x16384.Idx → BitVec 32) (init : S_.Idx → BitVec 32) (c : Fin 16384) :
    Host.reduce IntOp.addi x init reducesTo_S8192x16384_S16384_d0 h_S_ (ix1 c)
      = (Finset.univ : Finset (Fin 8192)).fold IntOp.addi (init (Shape.Idx.first h_S_)) (fun k => x (ix2 k c)) := by
  have hred : S8192x16384.Reduces [0] S16384 := by decide
  rw [Host.reduce_eq_fold_single IntOp.addi x init reducesTo_S8192x16384_S16384_d0 hred h_S_ (ix1 c)]
  refine Finset.fold_congr fun k _ => ?_
  show x (hred.lift (ix1 c) k) = x (ix2 k c)
  refine congrArg x (funext fun a => Fin.ext ?_)
  match a with
  | ⟨0, _⟩ => rfl
  | ⟨1, _⟩ => rfl

/-- The reference's positivity word, second copy, at an entry. -/
theorem pos_read' (adj : SAdj.Idx → BitVec 32) (i : SAdj.Idx) :
    val_main_v13 (F := Ideal) adj i = (IntOp.cmpi .sgt (adj i) 0#32).setWidth 32 := rfl

/-- The column's degree as the reference computes it is the count of its edges. -/
theorem cdeg_read (adj : SAdj.Idx → BitVec 32) (hadj : ∀ i : SAdj.Idx, (adj i).sle 5#32 = true) (c : Fin 16384) :
    val_main_v15 (F := Ideal) adj (ix1 c)
      = (((∑ k : Fin 8192, (edgeBit (adj (ix2 k c))).toNat : ℕ) : ℝ) : EReal) := by
  rw [val_main_v15_apply]
  show (((val_main_v14 (F := Ideal) adj (ix1 c)).toInt : ℝ) : EReal) = _
  have h14 : val_main_v14 (F := Ideal) adj (ix1 c)
      = (Finset.univ : Finset (Fin 8192)).fold IntOp.addi 0#32 (fun k => (edgeBit (adj (ix2 k c))).setWidth 32) := by
    refine (reduce_col _ _ c).trans ?_
    refine Finset.fold_congr fun k _ => ?_
    rw [pos_read', sgt_zero_eq_edgeBit _ (hadj _)]
  rw [h14, toInt_fold_addi _ _ (fun k _ => by rw [toNat_setWidth_bit]; exact toNat_bit_le_one _) (by simp)]
  simp only [toNat_setWidth_bit, Int.cast_natCast]

/-- The specification's column degree is the same count. -/
theorem colDeg_eq (adj : SAdj.Idx → BitVec 32) (c : Fin 16384) :
    colDeg adj c = (((∑ k : Fin 8192, (edgeBit (adj (ix2 k c))).toNat : ℕ) : ℝ) : EReal) :=
  sum_edge_eq_count Finset.univ fun k => adj (ix2 k c)

/-- A column with no edge aggregates to zero. -/
theorem colAgg_zero (adj : SAdj.Idx → BitVec 32) (u : SU.Idx → EReal) (c : Fin 16384) (d : Fin 32)
    (h : ∑ k : Fin 8192, (edgeBit (adj (ix2 k c))).toNat = 0) : colAgg adj u c d = 0 :=
  agg_eq_zero_of_count Finset.univ (fun k => adj (ix2 k c)) (fun k => u (ix2 k d)) h

/-- The reference's product of the transposed indicator with the row features at (c, d) is the column aggregate. -/
theorem cagg_read (adj : SAdj.Idx → BitVec 32) (u : SU.Idx → EReal) (c : Fin 16384) (d : Fin 32) :
    val_main_v24 (F := Ideal) adj u (ix2 c d) = colAgg adj u c d := by
  rw [val_main_v24_apply]
  unfold colAgg
  refine Finset.sum_congr rfl fun k _ => ?_
  have el : idx_main_v23 (lidx_main_v24 (ix2 c d) k) = ix2 k c :=
    funext fun a => Fin.ext (by match a with | ⟨0, _⟩ => rfl | ⟨1, _⟩ => rfl)
  have er : ridx_main_v24 (ix2 c d) k = ix2 k d :=
    funext fun a => Fin.ext (by match a with | ⟨0, _⟩ => rfl | ⟨1, _⟩ => rfl)
  rw [val_main_v23_apply, el, er, edge_read]

/-- The reciprocal column degree, broadcast along the features, at (c, d). -/
theorem cinv_read (adj : SAdj.Idx → BitVec 32) (c : Fin 16384) (d : Fin 32) :
    val_main_v25 (F := Ideal) adj (ix2 c d) = Ideal.div 1 (val_main_v15 (F := Ideal) adj (ix1 c)) := by
  rw [val_main_v25_apply, val_main_v22_apply, val_main_v17_apply, val_main_v16_apply, val_main_cst_4_apply]
  have e : idx_main_v22 (idx_main_v25 (ix2 c d)) = ix1 c :=
    funext fun a => Fin.ext (by match a with | ⟨0, _⟩ => rfl)
  rw [e]
  simp only [Ideal.hostDivf_def, Ideal.ofBits_def, ofBits_one]

/-- The reference's scaled column aggregate at (c, d) is the specification's mean. -/
theorem col_mean (adj : SAdj.Idx → BitVec 32) (u : SU.Idx → EReal)
    (hadj : ∀ i : SAdj.Idx, (adj i).sle 5#32 = true) (c : Fin 16384) (d : Fin 32) :
    val_main_v26 (F := Ideal) adj u (ix2 c d) = Ideal.div (colAgg adj u c d) (max (colDeg adj c) 1) := by
  rw [val_main_v26_apply, cinv_read, cagg_read, cdeg_read adj hadj c, colDeg_eq]
  exact inv_mul_eq_div _ _ (colAgg_zero adj u c d)

/-- The column-side result of the reference is the specification's. -/
theorem out_v (adj : SAdj.Idx → BitVec 32) (u : SU.Idx → EReal) (wv : SW.Idx → EReal)
    (hadj : ∀ i : SAdj.Idx, (adj i).sle 5#32 = true) :
    val_main_v30 (F := Ideal) adj u wv = GV adj u wv := by
  funext i
  obtain ⟨c, o, rfl⟩ : ∃ (c : Fin 16384) (o : Fin 32), i = ix2 c o := ⟨i 0, i 1, eq_ix2 i⟩
  rw [GV_ix2, val_main_v30_apply, val_main_v29_apply, val_main_call1_v0_apply, val_main_call1_cst_apply]
  unfold colOut
  simp only [Ideal.maximumf_def, Ideal.ofBits_def, Ideal.ofBits_zero_f32]
  refine congrArg (fun x : EReal => max x 0) ?_
  refine Finset.sum_congr rfl fun d _ => ?_
  have el : lidx_main_v29 (ix2 c o) d = ix2 c d :=
    funext fun a => Fin.ext (by match a with | ⟨0, _⟩ => rfl | ⟨1, _⟩ => rfl)
  have er : ridx_main_v29 (ix2 c o) d = ix2 d o :=
    funext fun a => Fin.ext (by match a with | ⟨0, _⟩ => rfl | ⟨1, _⟩ => rfl)
  rw [el, er, col_mean adj u hadj c d]

end Cert.ReferenceIdeal.RefSide

end
-- ==== Proof.RefRun.lean ====
/-
  The reference's run, with its two results named by the specification arrays, and its frame.
-/
import proofs.«133575_j89395449299805_2_alg».proof.Proof.RefSide
import proofs.«133575_j89395449299805_2_alg».proof.Proof.Gen.Pre_finite_inputs

noncomputable section

namespace Cert.ReferenceIdeal.RefSide

open Cert.ReferenceIdeal Cert.ReferenceIdeal.Gen Cert.ReferenceIdeal.Read Idealize.ShloMosaic Idealize.ShloMosaic.TcCoe
  Idealize.SL.Sem

/-- Every weakly fair execution of the reference terminates with the row-side result at `GU` and the column-side
    result at `GV` of the launch contents of the arguments, the arguments unchanged — when every matrix entry is at
    most 5. -/
theorem run (m' : (ℓ : Loc Cert.ReferenceIdeal.nD Cert.ReferenceIdeal.τ Cert.ReferenceIdeal.sig) → Buf (Elt Ideal) ℓ)
    (ρ' : Dev Cert.ReferenceIdeal.nD → PrngReg)
    (hadj : ∀ (c : Dev Cert.ReferenceIdeal.nD) (i : Cert.RatingAgg.SAdj.Idx),
      ((m' ((c.tc : Thread Cert.ReferenceIdeal.nD Cert.ReferenceIdeal.τ).loc Cert.ReferenceIdeal.main_arg0)) i).sle 5#32 = true) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v28)
          = Cert.RatingAgg.GU (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v30)
          = Cert.RatingAgg.GV (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run Cert.ReferenceIdeal.defs _ _).mono (fun _ h c =>
      ⟨(h c).1.trans ((val_main_v28_eq (F := Ideal) _ _ _).trans (out_u _ _ _ (hadj c))),
       (h c).2.1.trans ((val_main_v30_eq (F := Ideal) _ _ _).trans (out_v _ _ _ (hadj c))),
       (h c).2.2⟩)
    (Cert.ReferenceIdeal.Value.run (F := Ideal) m' ρ')

/-- The reference runs and leaves its arguments unchanged. -/
theorem frame_ref : Cert.frame_ReferenceIdeal := fun m ρ _ =>
  (θ_run Cert.ReferenceIdeal.defs _ _).mono (fun _ h c => (h c).2.2) (Cert.ReferenceIdeal.Value.run (F := Ideal) m ρ)

end Cert.ReferenceIdeal.RefSide

end
-- ==== Proof.PreAdj.lean ====
/-
  From the printed precondition to the bound on the matrix entries: when the predicate holds, every entry of the
  integer matrix is at most 5 (signed).
-/
import proofs.«133575_j89395449299805_2_alg».proof.Pre_finite_inputs
import Idealize.ShloMosaic.Lib.ReduceAll

noncomputable section

namespace Cert.Pre_finite_inputs.Adj

open Idealize.ShloMosaic Cert.Pre_finite_inputs

instance : Subsingleton S_.Idx := ⟨fun a b => funext fun d => d.elim0⟩

/-- The last conjunct of the predicate is the conjunction over all entries of `0 ≤ a ∧ a ≤ 5`; its second half
    is the bound. -/
theorem adj_le_of_pre {F : FTy → Type} [FloatOps F] [Cert.Pre_finite_inputs.Facts]
    (a0 : IVec Cert.Pre_finite_inputs.S8192x16384 32) (a1 : FVec F Cert.Pre_finite_inputs.S8192x32 .f32)
    (a2 : FVec F Cert.Pre_finite_inputs.S16384x32 .f32) (a3 : FVec F Cert.Pre_finite_inputs.S32x32 .f32)
    (a4 : FVec F Cert.Pre_finite_inputs.S32x32 .f32)
    (h : Cert.Pre_finite_inputs.fn (F := F) a0 a1 a2 a3 a4 = (fun _ => 1#1)) :
    ∀ i, (a0 i).sle 5#32 = true := by
  intro i
  have h0 := congrFun h (fun a => a.elim0 : S_.Idx)
  dsimp only [fn, fn_part1] at h0
  have h1 := (IntOp.andi_eq_one.1 h0).2
  have h2 := Host.reduce_andi_all _ _ _ _ _ h1 i
  have h3 := (IntOp.andi_eq_one.1 h2).2
  have h4 := IntOp.cmpi_sle.1 h3
  rw [BitVec.sle_iff_toInt_le]
  exact h4

end Cert.Pre_finite_inputs.Adj

end
-- ==== Proof.RefBridge.lean ====
/-
  The bound on the matrix entries, for the reference's memory, from the precondition stated of the kernel's memory
  and the agreement of the two memories on the matrix.
-/
import proofs.«133575_j89395449299805_2_alg».proof.Defs
import proofs.«133575_j89395449299805_2_alg».proof.Proof.PreAdj
import proofs.«133575_j89395449299805_2_alg».proof.Proof.Spec

noncomputable section

namespace Cert.ReferenceIdeal.RefSide

open Idealize.ShloMosaic Idealize.SL.Sem

/-- Every entry of the reference's matrix argument is at most 5 when the precondition holds of the kernel's
    arguments and the two matrices agree. -/
theorem hadj_of_pre [Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)) :
    ∀ (c : Dev Cert.ReferenceIdeal.nD) (i : Cert.RatingAgg.SAdj.Idx),
      ((m' ((c.tc : Thread Cert.ReferenceIdeal.nD Cert.ReferenceIdeal.τ).loc Cert.ReferenceIdeal.main_arg0)) i).sle 5#32 = true :=
  fun c i => by
    rw [hagree c]
    exact Cert.Pre_finite_inputs.Adj.adj_le_of_pre (F := Ideal) _ _ _ _ _ (hpre c) i

/-- The same bound from the precondition stated of the reference's own memory. -/
theorem hadj_of_pre_ref [Cert.Pre_finite_inputs.Facts]
    (m' : (ℓ : Loc Cert.ReferenceIdeal.nD Cert.ReferenceIdeal.τ Cert.ReferenceIdeal.sig) → Buf (Elt Ideal) ℓ)
    (hpre : Cert.Pre_ReferenceIdeal m') :
    ∀ (c : Dev Cert.ReferenceIdeal.nD) (i : Cert.RatingAgg.SAdj.Idx),
      ((m' ((c.tc : Thread Cert.ReferenceIdeal.nD Cert.ReferenceIdeal.τ).loc Cert.ReferenceIdeal.main_arg0)) i).sle 5#32 = true :=
  fun c i => Cert.Pre_finite_inputs.Adj.adj_le_of_pre (F := Ideal) _ _ _ _ _ (hpre c) i

end Cert.ReferenceIdeal.RefSide

end
-- ==== Proof.lean ====
/-
  The certificate of the rating-graph aggregation kernel against its jnp reference.

  The claim's precondition says the float inputs are finite and every entry of the integer matrix `adj` lies in
  0 … 5. An entry is an edge when it lies in 1 … 5. For each row (and, transposed, each column) both programs
  compute: the sum of the neighbours' feature rows over the row's edges, scaled by the reciprocal of the row's
  degree, times a 32 × 32 weight, clamped below at zero.

  * The reference counts the degree as the number of entries > 0 and multiplies by `1 / degree`. Under the
    precondition an entry is > 0 exactly when it is an edge, so that count is the number of edges; a row with no
    edge has aggregate 0, and `(1 / 0) · 0 = 0` on the extended reals; otherwise `(1 / c) · S = S / c`.
  * The kernel pads the features with a column of ones, so that the same matrix product yields the aggregate and
    the degree, accumulates the product over 16 column blocks per row block (row side, in the kernel) or over 8
    row blocks (column side, by the host lines after the kernel), divides by the degree clamped below at 1, and
    applies the weight and the clamp. Sums of extended reals may be regrouped freely, so the blocked sums are
    the whole sums.
  Both are the one function `Cert.RatingAgg.GU` / `GV` of the argument arrays (Proof/Spec.lean). No finiteness
  of the float inputs is used: only commutativity and associativity of + and ·, and `0 · x = 0`.

  The three frames: the two kernel programs (at the word-level instance and at the ideal one) by the run of the
  pipelined region at every grid point, the reference by its generated run.
-/
import proofs.«133575_j89395449299805_2_alg».proof.Defs
import proofs.«133575_j89395449299805_2_alg».proof.Proof.Gen.Kernel
import proofs.«133575_j89395449299805_2_alg».proof.Proof.Gen.KernelIdeal
import proofs.«133575_j89395449299805_2_alg».proof.Proof.Gen.ReferenceIdeal
import proofs.«133575_j89395449299805_2_alg».proof.Proof.Gen.Pre_finite_inputs
import proofs.«133575_j89395449299805_2_alg».proof.Proof.FrameEndB
import proofs.«133575_j89395449299805_2_alg».proof.Proof.KernelValue
import proofs.«133575_j89395449299805_2_alg».proof.Proof.RefRun
import proofs.«133575_j89395449299805_2_alg».proof.Proof.RefBridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

/-- Both idealized programs end with the specification's two result arrays of arguments that agree. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨_, _, Cert.KernelIdeal.Val.run m ρ, ?_⟩
  refine (θ_run Cert.ReferenceIdeal.defs _ _).mono (fun _ h c => ⟨?_, ?_, (h c).2.2⟩)
    (Cert.ReferenceIdeal.RefSide.run m' ρ' (Cert.ReferenceIdeal.RefSide.hadj_of_pre m m' hpre (fun c => (hagree c).1)))
  · rw [(h c).1, (hagree c).1, (hagree c).2.2.1, (hagree c).2.2.2.1]
  · rw [(h c).2.1, (hagree c).1, (hagree c).2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefSide.frame_ref, trivial, algebraic⟩

end Cert.Proof

end
